-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1200000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S10000x128 : Shape := ⟨2, ![10000, 128]⟩
abbrev S10000x64 : Shape := ⟨2, ![10000, 64]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 104
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S1x1200000, .i32⟩
  | .hbm, ⟨14, _⟩ => ⟨S1200000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S1300000x1, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1300000x1, .f32⟩
  | .hbm, ⟨73, _⟩ => ⟨S_, .i32⟩
  | .hbm, ⟨74, _⟩ => ⟨S1300000, .i32⟩
  | .hbm, ⟨75, _⟩ => ⟨S1300000, .i1⟩
  | .hbm, ⟨76, _⟩ => ⟨S_, .i32⟩
  | .hbm, ⟨77, _⟩ => ⟨S1300000, .i32⟩
  | .hbm, ⟨78, _⟩ => ⟨S1300000, .i32⟩
  | .hbm, ⟨79, _⟩ => ⟨S1300000, .i32⟩
  | .hbm, ⟨80, _⟩ => ⟨S1300000x1, .i32⟩
  | .hbm, ⟨81, _⟩ => ⟨S1300000x64, .f32⟩
  | .hbm, ⟨82, _⟩ => ⟨S1300000x64, .f32⟩
  | .hbm, ⟨83, _⟩ => ⟨S1300000x64, .f32⟩
  | .hbm, ⟨84, _⟩ => ⟨S_, .f32⟩
  | .hbm, ⟨85, _⟩ => ⟨S100000x64, .f32⟩
  | .hbm, ⟨86, _⟩ => ⟨S1300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S256x64, .f32⟩
  | .hbm, ⟨93, _⟩ => ⟨S100000x1, .i32⟩
  | .hbm, ⟨94, _⟩ => ⟨S256x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S256, .f32⟩
  | .hbm, ⟨99, _⟩ => ⟨S100000x1, .i32⟩
  | .hbm, ⟨100, _⟩ => ⟨S256, .f32⟩
  | .hbm, ⟨101, _⟩ => ⟨S256x1, .f32⟩
  | .hbm, ⟨102, _⟩ => ⟨S1x1, .f32⟩
  | .hbm, ⟨103, _⟩ => ⟨S256x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S256x64, .f32⟩
  | .local _ .vmem, ⟨11, _⟩ => ⟨S256x1, .f32⟩
  | .local _ .vmem, ⟨12, _⟩ => ⟨S64x1, .f32⟩
  | .local _ .vmem, ⟨13, _⟩ => ⟨S1x1, .f32⟩
  | .local _ .vmem, ⟨14, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x128_S128x64_S10000x64_1_0_0_1_n_n_wf : DotDims.WF S10000x128 S128x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v73) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S256x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S1300000 : Shape := ⟨1, ![1300000]⟩
abbrev S100000x64 : Shape := ⟨2, ![100000, 64]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S100000, .i32⟩
  | 10 => ⟨S1x1200000, .i32⟩
  | 11 => ⟨S1200000, .i32⟩
  | 12 => ⟨S1300000, .i32⟩
  | 13 => ⟨S1x1200000, .i32⟩
  | 14 => ⟨S1200000, .i32⟩
  | 15 => ⟨S1300000, .i32⟩
  | 16 => ⟨S100000x64, .f32⟩
  | 17 => ⟨S_, .f32⟩
  | 18 => ⟨S1300000, .f32⟩
  | 19 => ⟨S_, .f32⟩
  | 20 => ⟨S100000, .f32⟩
  | 21 => ⟨S1300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S100000, .f32⟩
  | 29 => ⟨S100000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S1300000x1, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x64, .f32⟩
  | 60 => ⟨S1300000x64, .f32⟩
  | 61 => ⟨S_, .f32⟩
  | 62 => ⟨S100000x64, .f32⟩
  | 63 => ⟨S1300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1300000, .f32⟩
  | 74 => ⟨S_, .f32⟩
  | 75 => ⟨S100000, .f32⟩
  | 76 => ⟨S1300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S100000, .f32⟩
  | 84 => ⟨S100000, .f32⟩
  | 85 => ⟨S_, .i32⟩
  | 86 => ⟨S1300000, .i32⟩
  | 87 => ⟨S1300000, .i1⟩
  | 88 => ⟨S_, .i32⟩
  | 89 => ⟨S1300000, .i32⟩
  | 90 => ⟨S1300000, .i32⟩
  | 91 => ⟨S1300000, .i32⟩
  | 92 => ⟨S1300000x1, .i32⟩
  | 93 => ⟨S1300000, .f32⟩
  | 94 => ⟨S_, .i32⟩
  | 95 => ⟨S1300000, .i32⟩
  | 96 => ⟨S1300000, .i1⟩
  | 97 => ⟨S_, .i32⟩
  | 98 => ⟨S1300000, .i32⟩
  | 99 => ⟨S1300000, .i32⟩
  | 100 => ⟨S1300000, .i32⟩
  | 101 => ⟨S1300000x1, .i32⟩
  | 102 => ⟨S1300000, .f32⟩
  | 103 => ⟨S1300000, .f32⟩
  | 104 => ⟨S1300000x1, .f32⟩
  | 105 => ⟨S_, .i32⟩
  | 106 => ⟨S1300000, .i32⟩
  | 107 => ⟨S1300000, .i1⟩
  | 108 => ⟨S_, .i32⟩
  | 109 => ⟨S1300000, .i32⟩
  | 110 => ⟨S1300000, .i32⟩
  | 111 => ⟨S1300000, .i32⟩
  | 112 => ⟨S1300000x1, .i32⟩
  | 113 => ⟨S1300000x64, .f32⟩
  | 114 => ⟨S1300000x64, .f32⟩
  | 115 => ⟨S1300000x64, .f32⟩
  | 116 => ⟨S_, .f32⟩
  | 117 => ⟨S100000x64, .f32⟩
  | 118 => ⟨S1300000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S256x64, .f32⟩
  | 125 => ⟨S100000x1, .i32⟩
  | 126 => ⟨S256x64, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S256, .f32⟩
  | 3 => ⟨S100000x1, .i32⟩
  | 4 => ⟨S256, .f32⟩
  | 5 => ⟨S_, .f32⟩
  | 6 => ⟨S256, .f32⟩
  | 7 => ⟨S256, .f32⟩
  | 8 => ⟨S256x1, .f32⟩
  | 9 => ⟨S256x64, .f32⟩
  | 10 => ⟨S256x64, .f32⟩
  | 11 => ⟨S256x1, .f32⟩
  | 12 => ⟨S1x1, .f32⟩
  | 13 => ⟨S256x1, .f32⟩
  | 14 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x128_S128x64_S100000x64_1_0_0_1_n_n_wf : DotDims.WF S100000x128 S128x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KRun.lean ====
/-
  The idealized kernel's run, with every buffer named.

  @main is nine segments: three stretches of host operations, the first dense product's region, two stretches, the second
  product's region, a stretch, and the pooling head's region. The generated frame folds the buffer contents through them
  (`Gen.W0` … `Gen.W9`) and proves each region's segment; here the same segments are run once more with a stronger
  conclusion: every weakly fair execution terminates, nothing faulting, and every unscoped buffer of every core ends at the
  last boundary's contents `Gen.W9`.
-/
import proofs.«142191_j37194416783379_2_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, and every unscoped buffer ends at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.RunAll

end
-- ==== Proof.Spec.lean ====
/-
  The two-layer graph convolution with mean pooling and a linear head, as one function of the argument arrays,
  built stage by stage from the host operations both programs run.

  Nodes n = 100000, edges E = 1200000 plus one self loop per node (1300000 in all), graphs G = 256.
  * `src e`, `dst e`: row 0 (row 1) of the edge list followed by 0, 1, …, n-1 (the self loops).
  * `wrap v`: node numbers read as signed, a negative one moved up by n, laid out as a column of row numbers.
  * `deg d`: how many edges end at each node; `dinv d` = deg^(-1/2) where deg > 0 and 0 elsewhere.
  * `norm s d`: per edge, dinv[src] · dinv[dst].
  * `layer s d h b`: at node r and feature k, Σ over the edges ending at r of norm(edge) · h[src(edge), k], plus b[k].
  * `relu`, the per-graph sums and counts, and the head: (sums / max(counts, 1)) · Wl + bl.
  The dense products x·W1, h·W2 and pooled·Wl are the host's `dot_general` here; the kernel computes them in its
  three pipelined regions.
-/
import proofs.«142191_j37194416783379_2_alg».proof.Proof.Gen.ReferenceIdeal
import Idealize.ShloMosaic.PureOps.Ideal

noncomputable section

namespace Cert.Gcn

open Idealize.ShloMosaic Cert.ReferenceIdeal Cert.ReferenceIdeal.Facts₀

variable {F : FTy → Type} [FloatOps F]

/-- Row 0 of the edge list, then the self loops 0 … n-1. -/
def src (e : IVec S2x1200000 32) : IVec S1300000 32 :=
  concatenate S1300000 0 [⟨S1200000, shapeCast S1200000 (extractStridedSlice S1x1200000 ![0, 0] e slices_S2x1200000_S1x1200000_0_0) shapeCasts_S1x1200000_S1200000⟩, ⟨S100000, iotaInDim S100000 32 0⟩] concatenates_S1200000_S100000_S1300000_d0

/-- Row 1 of the edge list, then the self loops 0 … n-1. -/
def dst (e : IVec S2x1200000 32) : IVec S1300000 32 :=
  concatenate S1300000 0 [⟨S1200000, shapeCast S1200000 (extractStridedSlice S1x1200000 ![1, 0] e slices_S2x1200000_S1x1200000_1_0) shapeCasts_S1x1200000_S1200000⟩, ⟨S100000, iotaInDim S100000 32 0⟩] concatenates_S1200000_S100000_S1300000_d0

/-- Node numbers as a column of row numbers: a negative number is moved up by n. -/
def wrap (v : IVec S1300000 32) : IVec S1300000x1 32 :=
  broadcastInDim S1300000x1 ![0] bcast_S1300000_S1300000x1_0
    (select (cmpi .slt v (broadcastInDim S1300000 ![] bcast_S_S1300000 (constantI S_ 32 0#32)))
      (addi v (broadcastInDim S1300000 ![] bcast_S_S1300000 (constantI S_ 32 100000#32))) v)

/-- The number of edges ending at each node. -/
def deg (d : IVec S1300000 32) : FVec F S100000 .f32 :=
  Host.scatterAdd scatter_S100000_S1300000x1_S1300000_n_0_0_1
    (broadcastInDim S100000 ![] bcast_S_S100000 (constant S_ .f32 0x00000000#32))
    (broadcastInDim S1300000x1 ![0] bcast_S1300000_S1300000x1_0 d)
    (broadcastInDim S1300000 ![] bcast_S_S1300000 (constant S_ .f32 0x3F800000#32))

/-- deg^(-1/2) where the degree is positive, 0 elsewhere. -/
def dinv (d : IVec S1300000 32) : FVec F S100000 .f32 :=
  select (cmpf .ogt (deg (F := F) d) (broadcastInDim S100000 ![] bcast_S_S100000 (constant S_ .f32 0x00000000#32)))
    (Host.rsqrt (deg (F := F) d)) (broadcastInDim S100000 ![] bcast_S_S100000 (constant S_ .f32 0x00000000#32))

/-- Per edge: dinv at its source times dinv at its target. -/
def norm (s d : IVec S1300000 32) : FVec F S1300000 .f32 :=
  mulf (Host.gather gather_S100000_S1300000x1_S1300000_n_0_n_n_0_1_1 (dinv (F := F) d) (wrap s))
    (Host.gather gather_S100000_S1300000x1_S1300000_n_0_n_n_0_1_1 (dinv (F := F) d) (wrap d))

/-- One aggregation with the edge weights `nrm` given: the weighted rows of `h` at the edges' sources, summed into the
    edges' targets, plus the bias. -/
def agg (nrm : FVec F S1300000 .f32) (s d : IVec S1300000 32) (h : FVec F S100000x64 .f32) (b : FVec F S64 .f32) :
    FVec F S100000x64 .f32 :=
  addf
    (Host.scatterAdd scatter_S100000x64_S1300000x1_S1300000x64_1_0_0_1
      (broadcastInDim S100000x64 ![] bcast_S_S100000x64 (constant S_ .f32 0x00000000#32))
      (broadcastInDim S1300000x1 ![0] bcast_S1300000_S1300000x1_0 d)
      (mulf
        (broadcastInDim S1300000x64 ![0, 1] bcast_S1300000x1_S1300000x64_0_1
          (broadcastInDim S1300000x1 ![0] bcast_S1300000_S1300000x1_0 nrm))
        (Host.gather gather_S100000x64_S1300000x1_S1300000x64_1_0_n_n_0_1_164 h (wrap s))))
    (broadcastInDim S100000x64 ![0, 1] bcast_S1x64_S100000x64_0_1 (broadcastInDim S1x64 ![1] bcast_S64_S1x64_1 b))

/-- One layer's aggregation, with the symmetric normalisation as the edge weights. -/
def layer (s d : IVec S1300000 32) (h : FVec F S100000x64 .f32) (b : FVec F S64 .f32) : FVec F S100000x64 .f32 :=
  agg (norm (F := F) s d) s d h b

/-- max(x, 0), entry by entry. -/
def relu (x : FVec F S100000x64 .f32) : FVec F S100000x64 .f32 :=
  maximumf x (broadcastInDim S100000x64 ![] bcast_S_S100000x64 (constant S_ .f32 0x00000000#32))

/-- Per graph, the sum of its nodes' rows. -/
def sums (g : IVec S100000 32) (h : FVec F S100000x64 .f32) : FVec F S256x64 .f32 :=
  Host.scatterAdd scatter_S256x64_S100000x1_S100000x64_1_0_0_1
    (broadcastInDim S256x64 ![] bcast_S_S256x64 (constant S_ .f32 0x00000000#32))
    (broadcastInDim S100000x1 ![0] bcast_S100000_S100000x1_0 g) h

/-- Per graph, the number of its nodes. -/
def cnts (g : IVec S100000 32) : FVec F S256 .f32 :=
  Host.scatterAdd scatter_S256_S100000x1_S100000_n_0_0_1
    (broadcastInDim S256 ![] bcast_S_S256 (constant S_ .f32 0x00000000#32))
    (broadcastInDim S100000x1 ![0] bcast_S100000_S100000x1_0 g)
    (broadcastInDim S100000 ![] bcast_S_S100000 (constant S_ .f32 0x3F800000#32))

/-- The head: the per-graph means times Wl, plus bl. -/
def head (s : FVec F S256x64 .f32) (c : FVec F S256 .f32) (wl : FVec F S64x1 .f32) (bl : FVec F S1 .f32) : FVec F S256x1 .f32 :=
  addf
    (Host.dotGeneral dot_S256x64_S64x1_S256x1_1_0_0_1_n_n none
      (Host.divf s
        (broadcastInDim S256x64 ![0, 1] bcast_S256x1_S256x64_0_1
          (broadcastInDim S256x1 ![0] bcast_S256_S256x1_0
            (maximumf c (broadcastInDim S256 ![] bcast_S_S256 (constant S_ .f32 0x3F800000#32))))))
      wl)
    (broadcastInDim S256x1 ![0, 1] bcast_S1x1_S256x1_0_1 (broadcastInDim S1x1 ![1] bcast_S1_S1x1_1 bl))

/-- The first dense product, x · W1. -/
def mm1 (x : FVec F S100000x128 .f32) (w : FVec F S128x64 .f32) : FVec F S100000x64 .f32 :=
  Host.dotGeneral dot_S100000x128_S128x64_S100000x64_1_0_0_1_n_n none x w

/-- The second dense product, h · W2. -/
def mm2 (h : FVec F S100000x64 .f32) (w : FVec F S64x64 .f32) : FVec F S100000x64 .f32 :=
  Host.dotGeneral dot_S100000x64_S64x64_S100000x64_1_0_0_1_n_n none h w

/-- The whole network. -/
def out (x : FVec F S100000x128 .f32) (e : IVec S2x1200000 32) (g : IVec S100000 32) (w1 : FVec F S128x64 .f32)
    (b1 : FVec F S64 .f32) (w2 : FVec F S64x64 .f32) (b2 : FVec F S64 .f32) (wl : FVec F S64x1 .f32) (bl : FVec F S1 .f32) :
    FVec F S256x1 .f32 :=
  head
    (sums g
      (layer (src e) (dst e)
        (mm2 (relu (layer (src e) (dst e) (mm1 x w1) b1)) w2)
        b2))
    (cnts g) wl bl

end Cert.Gcn

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«142191_j37194416783379_2_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«142191_j37194416783379_2_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.LibHostTyped.lean ====
/-
  A line of host operations in which every buffer is written once: the operations of a module-local function.

  Such an operation names its buffers through typed references and moves contents between a buffer's own type and the
  value's type along the equation of the two. Read at the valuation after the whole line, the result buffer holds the
  operation's function of what its operand buffers hold — stated with heterogeneous equality, so that at literal
  references, where the two types coincide by computation, the transports never have to be opened.
-/
import proofs.«142191_j37194416783379_2_alg».proof.Proof.LibHostOnce

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}
variable {Tx Ta Tb Tc Ty : BufTy}

/-- A constant into a typed reference's buffer. -/
theorem tnullary_at (h : Outs l ys) (V : Valuation τ sig Val) (k : Nat) (y : TRef sig Ty) (v : Ty.Contents Val)
    (hk : l[k]? = some (TRef.nullary y v)) (hy' : y.ref ∉ ys.drop (k + 1)) :
    HEq (after l V (Proc.devRef .tc y.ref)) v := by
  rw [after_at h k _ y.ref hk hy' V]
  exact tnullary_heq y v _

/-- A one-operand operation over typed references. -/
theorem tunary_at (h : Outs l ys) (V : Valuation τ sig Val) (k : Nat) (x : TRef sig Tx) (y : TRef sig Ty)
    (f : Tx.Contents Val → Ty.Contents Val)
    (hk : l[k]? = some (TRef.unary x y f)) (hy' : y.ref ∉ ys.drop (k + 1)) (hx' : x.ref ∉ ys.drop k)
    (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

/-- A two-operand operation over typed references. -/
theorem tbinary_at (h : Outs l ys) (V : Valuation τ sig Val) (k : Nat) (a : TRef sig Ta) (b : TRef sig Tb) (y : TRef sig Ty)
    (f : Ta.Contents Val → Tb.Contents Val → Ty.Contents Val)
    (hk : l[k]? = some (TRef.binary a b y f)) (hy' : y.ref ∉ ys.drop (k + 1)) (ha' : a.ref ∉ ys.drop k) (hb' : b.ref ∉ ys.drop k)
    (va : Ta.Contents Val) (vb : Tb.Contents Val)
    (ha : HEq (after l V (Proc.devRef .tc a.ref)) va) (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

/-- A three-operand operation over typed references. -/
theorem tternary_at (h : Outs l ys) (V : Valuation τ sig Val) (k : Nat) (c : TRef sig Tc) (a : TRef sig Ta) (b : TRef sig Tb)
    (y : TRef sig Ty) (f : Tc.Contents Val → Ta.Contents Val → Tb.Contents Val → Ty.Contents Val)
    (hk : l[k]? = some (TRef.ternary c a b y f)) (hy' : y.ref ∉ ys.drop (k + 1))
    (hc' : c.ref ∉ ys.drop k) (ha' : a.ref ∉ ys.drop k) (hb' : b.ref ∉ ys.drop k)
    (vc : Tc.Contents Val) (va : Ta.Contents Val) (vb : Tb.Contents Val)
    (hc : HEq (after l V (Proc.devRef .tc c.ref)) vc) (ha : HEq (after l V (Proc.devRef .tc a.ref)) va)
    (hb : HEq (after l V (Proc.devRef .tc b.ref)) vb) :
    HEq (after l V (Proc.devRef .tc y.ref)) (f vc va vb) := by
  rw [after_at h k _ y.ref hk hy' V]
  exact tternary_heq c a b y f _ vc va vb (by rw [← after_take h k c.ref hc' V]; exact hc)
    (by rw [← after_take h k a.ref ha' V]; exact ha) (by rw [← after_take h k b.ref hb' V]; exact hb)

end HostRead
-- ==== Proof.KHost.lean ====
/-
  The idealized kernel's host operations, read stretch by stretch.

  Between its three regions the kernel runs the same host operations as the reference: the edge endpoints with their self
  loops, the degrees and their inverse square roots, the per-edge weights, and, around each dense product, the gather of
  source rows, their weighting, the sum into target rows and the bias; then the per-graph sums and counts. Each stretch is a
  line of operations that writes every buffer once; what a buffer of interest holds after a stretch is the corresponding
  stage of the specification applied to what the stretch found, and a buffer the stretch does not write keeps its contents.
-/
import proofs.«142191_j37194416783379_2_alg».proof.Proof.Spec
import proofs.«142191_j37194416783379_2_alg».proof.Proof.Gen.KernelIdeal.Frame
import proofs.«142191_j37194416783379_2_alg».proof.Proof.LibHostTyped
import Idealize.ShloMosaic.Lib.StableHlo.Run

set_option maxRecDepth 16384

noncomputable section

namespace Cert.KernelIdeal.Host

open Idealize.ShloMosaic Idealize.ShloMosaic.TcCoe Idealize.ShloMosaic.StableHlo Idealize.SL.Sem
open Cert.KernelIdeal Cert.KernelIdeal.Gen HostRead

variable {F : FTy → Type} [FloatOps F]

/-! ## The buffers each stretch writes -/

abbrev ys0 : List (Ref sig .tc) := [main_v0, main_v1, main_v2, main_v3, main_v4, main_v5, main_v6, main_cst, main_v7, main_cst_0, main_v8, main_v9, main_v10, main_cst_1, main_v11, main_v12, main_v13, main_cst_2, main_v14]
abbrev ys0_1 : List (Ref sig .tc) := [main_v15]
abbrev ys0_2 : List (Ref sig .tc) := [main_c, main_v16, main_v17, main_c_3, main_v18, main_v19, main_v20, main_v21, main_v22, main_c_4, main_v23, main_v24, main_c_5, main_v25, main_v26, main_v27, main_v28, main_v29, main_v30]
abbrev ys1 : List (Ref sig .tc) := [main_v32, main_c_6, main_v33, main_v34, main_c_7, main_v35, main_v36, main_v37, main_v38, main_v39, main_v40, main_v41, main_cst_8, main_v42, main_v43, main_v44, main_v45, main_v46, main_v47]
abbrev ys1_1 : List (Ref sig .tc) := [main_call1_cst, main_call1_v0, main_v48]
abbrev ys2 : List (Ref sig .tc) := [main_v50, main_c_9, main_v51, main_v52, main_c_10, main_v53, main_v54, main_v55, main_v56, main_v57, main_v58, main_v59, main_cst_11, main_v60, main_v61, main_v62, main_v63, main_v64, main_v65, main_cst_12, main_v66, main_v67, main_v68, main_cst_13, main_v69, main_cst_14, main_v70, main_v71, main_v72, main_v73, main_v74]

theorem outs0 : Outs (hostOps0 (F := F)) ys0 := by
  unfold Outs hostOps0 ys0
  repeat (first | exact List.Forall₂.nil | refine List.Forall₂.cons rfl ?_)
theorem outs0_1 : Outs (hostOps0_1 (F := F)) ys0_1 := by
  unfold Outs hostOps0_1 ys0_1
  repeat (first | exact List.Forall₂.nil | refine List.Forall₂.cons rfl ?_)
theorem outs0_2 : Outs (hostOps0_2 (F := F)) ys0_2 := by
  unfold Outs hostOps0_2 ys0_2
  repeat (first | exact List.Forall₂.nil | refine List.Forall₂.cons rfl ?_)
theorem outs1 : Outs (hostOps1 (F := F)) ys1 := by
  unfold Outs hostOps1 ys1
  repeat (first | exact List.Forall₂.nil | refine List.Forall₂.cons rfl ?_)
theorem outs1_1 : Outs (hostOps1_1 (F := F)) ys1_1 := by
  unfold Outs hostOps1_1 ys1_1
  repeat (first | exact List.Forall₂.nil | refine List.Forall₂.cons rfl ?_)
theorem outs2 : Outs (hostOps2 (F := F)) ys2 := by
  unfold Outs hostOps2 ys2
  repeat (first | exact List.Forall₂.nil | refine List.Forall₂.cons rfl ?_)

/-- A buffer a line does not write keeps its contents. -/
theorem keep {l : List (HloOp τ sig (Elt F))} {ys : List (Ref sig .tc)} (h : Outs l ys) (r : Ref sig .tc) (hr : r ∉ ys)
    (W : Valuation τ sig (Elt F)) : after l W (Proc.devRef .tc r) = W (Proc.devRef .tc r) :=
  after_take h 0 r hr W

/-! ## The first stretch: endpoints, degrees -/

variable (W : Valuation τ sig (Elt F))

theorem s0_src : after hostOps0 W (Proc.devRef .tc main_v3) = Cert.Gcn.src (W (Proc.devRef .tc main_arg1)) := by
  dsimp only [hostOps0]; after_results <;> rfl

theorem s0_dst : after hostOps0 W (Proc.devRef .tc main_v6) = Cert.Gcn.dst (W (Proc.devRef .tc main_arg1)) := by
  dsimp only [hostOps0]; after_results <;> rfl

theorem s0_pos : after hostOps0 W (Proc.devRef .tc main_v12)
    = cmpf .ogt (Cert.Gcn.deg (F := F) (Cert.Gcn.dst (W (Proc.devRef .tc main_arg1))))
        (broadcastInDim S100000 ![] Facts₀.bcast_S_S100000 (constant S_ .f32 0x00000000#32)) := by
  dsimp only [hostOps0]; after_results <;> rfl

theorem s0_rsqrt : after hostOps0 W (Proc.devRef .tc main_v13)
    = Host.rsqrt (Cert.Gcn.deg (F := F) (Cert.Gcn.dst (W (Proc.devRef .tc main_arg1)))) := by
  dsimp only [hostOps0]; after_results <;> rfl

theorem s0_zero : after hostOps0 W (Proc.devRef .tc main_v14)
    = broadcastInDim S100000 ![] Facts₀.bcast_S_S100000 (constant (F := F) S_ .f32 0x00000000#32) := by
  dsimp only [hostOps0]; after_results <;> rfl

/-! ## The select of the inverse square roots -/

theorem s01_dinv : after hostOps0_1 W (Proc.devRef .tc main_v15)
    = select (W (Proc.devRef .tc main_v12)) (W (Proc.devRef .tc main_v13)) (W (Proc.devRef .tc main_v14)) :=
  eq_of_heq (tternary_at outs0_1 W 0 (.of main_v12) (.of main_v13) (.of main_v14) (.of main_v15) select rfl (by decide) (by decide)
    (by decide) (by decide) _ _ _ HEq.rfl HEq.rfl HEq.rfl)

/-! ## The per-edge weights -/

set_option maxHeartbeats 4000000 in
theorem s02_norm : after hostOps0_2 W (Proc.devRef .tc main_v30)
    = mulf (Host.gather gather_S100000_S1300000x1_S1300000_n_0_n_n_0_1_1 (W (Proc.devRef .tc main_v15)) (Cert.Gcn.wrap (W (Proc.devRef .tc main_v3))))
        (Host.gather gather_S100000_S1300000x1_S1300000_n_0_n_n_0_1_1 (W (Proc.devRef .tc main_v15)) (Cert.Gcn.wrap (W (Proc.devRef .tc main_v6)))) := by
  dsimp only [hostOps0_2]; after_results <;> rfl

/-! ## The aggregations around the dense products -/

set_option maxHeartbeats 4000000 in
theorem s1_agg : after hostOps1 W (Proc.devRef .tc main_v47)
    = Cert.Gcn.agg (W (Proc.devRef .tc main_v30)) (W (Proc.devRef .tc main_v3)) (W (Proc.devRef .tc main_v6))
        (W (Proc.devRef .tc main_v31)) (W (Proc.devRef .tc main_arg4)) := by
  dsimp only [hostOps1]; after_results <;> rfl

set_option maxHeartbeats 8000000 in
theorem s2_sums : after hostOps2 W (Proc.devRef .tc main_v68)
    = Cert.Gcn.sums (W (Proc.devRef .tc main_arg2))
        (Cert.Gcn.agg (W (Proc.devRef .tc main_v30)) (W (Proc.devRef .tc main_v3)) (W (Proc.devRef .tc main_v6))
          (W (Proc.devRef .tc main_v49)) (W (Proc.devRef .tc main_arg6))) := by
  dsimp only [hostOps2]; after_results <;> rfl

theorem s2_cnts : after hostOps2 W (Proc.devRef .tc main_v73)
    = broadcastInDim S256x1 ![0] Facts₀.bcast_S256_S256x1_0 (Cert.Gcn.cnts (F := F) (W (Proc.devRef .tc main_arg2))) := by
  dsimp only [hostOps2]; after_results <;> rfl

theorem s2_bias : after hostOps2 W (Proc.devRef .tc main_v74)
    = shapeCast S1x1 (W (Proc.devRef .tc main_arg8)) Facts₀.shapeCasts_S1_S1x1 := by
  dsimp only [hostOps2]; after_results <;> rfl

end Cert.KernelIdeal.Host

end
-- ==== Proof.KRegionMatmul.lean ====
/-
  The two dense products x · W1 and h · W2, as the kernel's first two grid regions leave them.

  Each region walks the 100000 rows in 10 blocks of 10000. At point t it holds rows 10000 t … 10000 t + 9999 of the
  left matrix and the whole right matrix, and stores the block product. On the extended reals the narrowing of the
  operands is the identity and a product into a zero accumulator is the plain sum of products, so at row
  r = 10000 t + p and column q the stored entry is Σ_k x(r, k) · w(k, q): the same sum the host's product of the whole
  matrices has there. The 10 blocks tile the result, so the result array ends as that product.
-/
import proofs.«142191_j37194416783379_2_alg».proof.Proof.Spec
import proofs.«142191_j37194416783379_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg

open Idealize.ShloMosaic Idealize.ShloMosaic.TcCoe Idealize.SL.Sem Cert.KernelIdeal Cert.KernelIdeal.Gen
open Idealize.ShloMosaic.ValueIdx

/-! ## A matrix product at a row and a column -/

/-- With one contracted axis, columns of the left against rows of the right, the left operand is read at
    (row, contracted coordinate) and the right operand at (contracted coordinate, column). -/
theorem operand_indices {m k n : Nat}
    (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b) ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b) ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- A product of an m×k by a k×n matrix into a zero accumulator, at row a and column b: the sum over the contracted
    coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (F := Ideal) (⟨[1], [0], [0], [1], [], [], w⟩ : DotDims ⟨2, ![m, k]⟩ ⟨2, ![k, n]⟩ ⟨2, ![m, n]⟩) prec A B (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := operand_indices w a b c
  rw [l2, r2]

/-- The host's product of the same shape, at row a and column b: the same sum. -/
theorem dotGeneral_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := operand_indices w a b c
  rw [l2, r2]

/-- A block's rectangle starts at the origin of its buffer. -/
theorem origin : (![0, 0] : Fin 2 → Nat) = fun _ => 0 := funext fun a => by fin_cases a <;> rfl

/-! ## Region 0: x · W1 -/

/-- The block product at row p and column q of the block. -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_zero_apply dot_S10000x128_S128x64_S10000x64_1_0_0_1_n_n_wf none _ _ p q

/-- The dense product of the whole matrices at row r and column q. -/
theorem mm1_apply (x : FVec Ideal Cert.ReferenceIdeal.S100000x128 .f32) (w : FVec Ideal Cert.ReferenceIdeal.S128x64 .f32) (r : Fin 100000) (q : Fin 64) :
    Cert.Gcn.mm1 (F := Ideal) x w (ix2 r q) = ∑ k : Fin 128, x (ix2 r k) * w (ix2 k q) := by
  unfold Cert.Gcn.mm1
  exact dotGeneral_apply Cert.ReferenceIdeal.Gen.dot_S100000x128_S128x64_S100000x64_1_0_0_1_n_n_wf none x w r q

/-- The block index maps over the grid: the left operand's row block and the result's row block are the point's
    number, every other block index is 0. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the product of the whole matrices: at row p and column q of the block
    both are Σ_k x(10000 t + p, k) · w(k, q). -/
theorem flushed0 (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.mm1 (F := Ideal) (V c main_arg0) (V c main_arg3)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  funext j
  show k0_pay1 (F := Ideal) (iblk0 V c 0 t) (iblk0 V c 1 t) j
    = Cert.Gcn.mm1 (F := Ideal) (V c main_arg0) (V c main_arg3) (((cfg0.win 2).blk t).view.emb j)
  obtain ⟨p, q, rfl⟩ : ∃ (p : Fin 10000) (q : Fin 64), j = ix2 p q := ⟨j 0, j 1, eq_ix2 j⟩
  obtain ⟨e00, e01, e10, e11, e21, e20⟩ := blocks0 t
  have ht : t.val < 10 := lt_of_lt_of_eq t.isLt N_0
  have hr : t.val * 10000 + p.val < 100000 := by have := p.isLt; omega
  have hemb : ((cfg0.win 2).blk t).view.emb (ix2 p q) = (ix2 (⟨t.val * 10000 + p.val, hr⟩ : Fin 100000) q : S100000x64.Idx) := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (pay0_apply (iblk0 V c 0 t) (iblk0 V c 1 t) p q).trans ?_
  rw [hemb]
  refine Eq.trans ?_ (mm1_apply (V c main_arg0) (V c main_arg3) ⟨t.val * 10000 + p.val, hr⟩ q).symm
  refine Finset.sum_congr rfl fun k _ => ?_
  have h0 : iblk0 V c 0 t (ix2 p k) = V c main_arg0 (ix2 (⟨t.val * 10000 + p.val, hr⟩ : Fin 100000) k : S100000x128.Idx) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : iblk0 V c 1 t (ix2 k q) = V c main_arg3 (ix2 k q : S128x64.Idx) := by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [h0, h1]

/-- An entry of the result is in point t's block iff each coordinate is in the block's range on its axis. -/
theorem mem_block0 (t : Fin cfg0.N) (i : S100000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- The blocks tile the result: row r is in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 10000 < 10 := by omega
  refine ⟨⟨(i 0).val / 10000, lt_of_lt_of_eq hq N_0.symm⟩, flush0_2 _, ?_⟩
  obtain ⟨-, -, -, -, e21, e20⟩ := blocks0 ⟨(i 0).val / 10000, lt_of_lt_of_eq hq N_0.symm⟩
  have e20' : win0_2.index ⟨(i 0).val / 10000, lt_of_lt_of_eq hq N_0.symm⟩ (0 : Fin 2) = (i 0).val / 10000 := e20
  rw [mem_block0]
  intro a
  match a with
  | ⟨0, _⟩ =>
    show win0_2.index ⟨(i 0).val / 10000, lt_of_lt_of_eq hq N_0.symm⟩ (0 : Fin 2) * 10000 ≤ (i 0).val
      ∧ (i 0).val < win0_2.index ⟨(i 0).val / 10000, lt_of_lt_of_eq hq N_0.symm⟩ (0 : Fin 2) * 10000 + 10000
    omega
  | ⟨1, _⟩ =>
    show win0_2.index ⟨(i 0).val / 10000, lt_of_lt_of_eq hq N_0.symm⟩ (1 : Fin 2) * 64 ≤ (i 1).val
      ∧ (i 1).val < win0_2.index ⟨(i 0).val / 10000, lt_of_lt_of_eq hq N_0.symm⟩ (1 : Fin 2) * 64 + 64
    omega

/-- The result array after the region is the product of the whole matrices as the region found them. -/
theorem region0 (V : (c : Dev nD) → (b : Ref sig .tc) → Buf (Elt Ideal) ((c : Thread nD τ).loc b)) (c : Dev nD) :
    (dat0 (F := Ideal) V c).arrAt 2 cfg0.N = Cert.Gcn.mm1 (F := Ideal) (V c main_arg0) (V c main_arg3) :=
  (dat0 (F := Ideal) V c).arrAt_eq_of_cover 2 _ (fun t _ => flushed0 V c t) cover0

/-! ## Region 1: h · W2 -/

/-- The block product at row p and column q of the block. -/
theorem pay1_apply (x0 : Vec Ideal S10000x64 .f32) (x1 : Vec Ideal S64x64 .f32) (p : Fin 10000) (q : Fin 64) :
    k1_pay1 (F := Ideal) x0 x1 (ix2 p q) = ∑ k : Fin 64, x0 (ix2 p k) * x1 (ix2 k q) := by
  unfold k1_pay1
  refine (matmul_zero_apply dot_S10000x64_S64x64_S10000x64_1_0_0_1_n_n_wf none _ _ p q).trans ?_
  refine Finset.sum_congr rfl fun k _ => ?_
  show shapeCast S10000x64 x0 shapeCasts_S10000x64_S10000x64 (ix2 p k) * x1 (ix2 k q) = _
  rw [shapeCast_self]

/-- The dense product of the whole matrices at row r and column q. -/
theorem mm2_apply (x : FVec Ideal Cert.ReferenceIdeal.S100000x64 .f32) (w : FVec Ideal Cert.ReferenceIdeal.S64x64 .f32) (r : Fin 100000) (q : Fin 64) :
    Cert.Gcn.mm2 (F := Ideal) x w (ix2 r q) = ∑ k : Fin 64, x (ix2 r k) * w (ix2 k q) := by
  unfold Cert.Gcn.mm2
  exact dotGeneral_apply Cert.ReferenceIdeal.Gen.dot_S100000x64_S64x64_S100000x64_1_0_0_1_n_n_wf none x w r q

/-- The block index maps over the grid: the left operand's row block and the result's row block are the point's
    number, every other block index is 0. -/
theorem blocks1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point t writes back is block t of the product of the whole matrices: at row p and column q of the block
    both are Σ_k x(10000 t + p, k) · w(k, q). -/
theorem flushed1 (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Gcn.mm2 (F := Ideal) (V c main_v48) (V c main_arg5)) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x64) origin]
  funext j
  show k1_pay1 (F := Ideal) (iblk1 V c 0 t) (iblk1 V c 1 t) j
    = Cert.Gcn.mm2 (F := Ideal) (V c main_v48) (V c main_arg5) (((cfg1.win 2).blk t).view.emb j)
  obtain ⟨p, q, rfl⟩ : ∃ (p : Fin 10000) (q : Fin 64), j = ix2 p q := ⟨j 0, j 1, eq_ix2 j⟩
  obtain ⟨e00, e01, e10, e11, e21, e20⟩ := blocks1 t
  have ht : t.val < 10 := lt_of_lt_of_eq t.isLt N_1
  have hr : t.val * 10000 + p.val < 100000 := by have := p.isLt; omega
  have hemb : ((cfg1.win 2).blk t).view.emb (ix2 p q) = (ix2 (⟨t.val * 10000 + p.val, hr⟩ : Fin 100000) q : S100000x64.Idx) := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  refine (pay1_apply (iblk1 V c 0 t) (iblk1 V c 1 t) p q).trans ?_
  rw [hemb]
  refine Eq.trans ?_ (mm2_apply (V c main_v48) (V c main_arg5) ⟨t.val * 10000 + p.val, hr⟩ q).symm
  refine Finset.sum_congr rfl fun k _ => ?_
  have h0 : iblk1 V c 0 t (ix2 p k) = V c main_v48 (ix2 (⟨t.val * 10000 + p.val, hr⟩ : Fin 100000) k : S100000x64.Idx) := by
    show V c main_v48 (((cfg1.win 0).blk t).view.emb (ix2 p k)) = _
    refine congrArg (V c main_v48) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : iblk1 V c 1 t (ix2 k q) = V c main_arg5 (ix2 k q : S64x64.Idx) := by
    show V c main_arg5 (((cfg1.win 1).blk t).view.emb (ix2 k q)) = _
    refine congrArg (V c main_arg5) ?_
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  rw [h0, h1]

/-- An entry of the result is in point t's block iff each coordinate is in the block's range on its axis. -/
theorem mem_block1 (t : Fin cfg1.N) (i : S100000x64.Idx) :
    i ∈ ((cfg1.win 2).blk t).view.set
      ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The blocks tile the result: row r is in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hq : (i 0).val / 10000 < 10 := by omega
  refine ⟨⟨(i 0).val / 10000, lt_of_lt_of_eq hq N_1.symm⟩, flush1_2 _, ?_⟩
  obtain ⟨-, -, -, -, e21, e20⟩ := blocks1 ⟨(i 0).val / 10000, lt_of_lt_of_eq hq N_1.symm⟩
  have e20' : win1_2.index ⟨(i 0).val / 10000, lt_of_lt_of_eq hq N_1.symm⟩ (0 : Fin 2) = (i 0).val / 10000 := e20
  rw [mem_block1]
  intro a
  match a with
  | ⟨0, _⟩ =>
    show win1_2.index ⟨(i 0).val / 10000, lt_of_lt_of_eq hq N_1.symm⟩ (0 : Fin 2) * 10000 ≤ (i 0).val
      ∧ (i 0).val < win1_2.index ⟨(i 0).val / 10000, lt_of_lt_of_eq hq N_1.symm⟩ (0 : Fin 2) * 10000 + 10000
    omega
  | ⟨1, _⟩ =>
    show win1_2.index ⟨(i 0).val / 10000, lt_of_lt_of_eq hq N_1.symm⟩ (1 : Fin 2) * 64 ≤ (i 1).val
      ∧ (i 1).val < win1_2.index ⟨(i 0).val / 10000, lt_of_lt_of_eq hq N_1.symm⟩ (1 : Fin 2) * 64 + 64
    omega

/-- The result array after the region is the product of the whole matrices as the region found them. -/
theorem region1 (V : (c : Dev nD) → (b : Ref sig .tc) → Buf (Elt Ideal) ((c : Thread nD τ).loc b)) (c : Dev nD) :
    (dat1 (F := Ideal) V c).arrAt 2 cfg1.N = Cert.Gcn.mm2 (F := Ideal) (V c main_v48) (V c main_arg5) :=
  (dat1 (F := Ideal) V c).arrAt_eq_of_cover 2 _ (fun t _ => flushed1 V c t) cover1

end Cert.KernelIdeal.Reg

end
-- ==== Proof.KRegionHead.lean ====
/-
  The pooling head, the kernel's last pipelined region, as a closed function of the arrays the region finds.

  The region has one grid point and five windows, each its whole array: the per-graph sums [256,64], the per-graph
  counts as a column [256,1], the weights [64,1], the bias [1,1], and the output [256,1]. At (g, 0) the output is
      (Σ over k of (sums(g,k) / max(counts g, 1)) · Wl(k,0)) + bl 0
  on the extended reals, where a change of float format is the identity and a product into a zero accumulator is the
  plain sum of products. The reference writes the same value with the counts as a vector and the bias as a one-entry
  vector; the two layouts read the same entries.
-/
import proofs.«142191_j37194416783379_2_alg».proof.Proof.Spec
import proofs.«142191_j37194416783379_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg

open Idealize.ShloMosaic Idealize.ShloMosaic.TcCoe Idealize.SL.Sem Cert.KernelIdeal Cert.KernelIdeal.Gen
open Idealize.ShloMosaic.ValueIdx

/-- The zero offsets of a whole-buffer rectangle, as the constant function. -/
theorem hz : (![0, 0] : Fin 2 → Nat) = fun _ => 0 := funext fun a => by fin_cases a <;> rfl

/-! ## Layout operations of the pooling head, read at an index -/

/-- A length-256 vector laid out as a [256,1] column reads, at (p, r), its entry p. -/
theorem col_apply {α : Type} (x : S256.Idx → α) (h : S256.BroadcastsInDim S256x1 ![0]) (p : Fin 256) (r : Fin 1) :
    broadcastInDim S256x1 ![0] h x (ix2 p r) = x (ix1 p) := by
  refine broadcastInDim_apply _ h x (ix2 p r) (ix1 p) fun a => ?_
  match a with
  | ⟨0, _⟩ => rfl

/-- A [256,1] column broadcast along the 64 lanes reads, at (p, q), the column's entry p. -/
theorem lanes_apply {α : Type} (v : S256x1.Idx → α) (h : S256x1.Broadcasts S256x64) (p : Fin 256) (q : Fin 64) :
    broadcastTo S256x64 v h (ix2 p q) = v (ix2 p (0 : Fin 1)) := by
  refine broadcastTo_apply v h (ix2 p q) (ix2 p (0 : Fin 1)) fun a => ?_
  match a with
  | ⟨0, _⟩ => rfl
  | ⟨1, _⟩ => rfl

/-- The same broadcast written with explicit axes. -/
theorem lanes_inDim_apply {α : Type} (v : S256x1.Idx → α) (h : S256x1.BroadcastsInDim S256x64 ![0, 1]) (p : Fin 256) (q : Fin 64) :
    broadcastInDim S256x64 ![0, 1] h v (ix2 p q) = v (ix2 p (0 : Fin 1)) := by
  refine broadcastInDim_apply _ h v (ix2 p q) (ix2 p (0 : Fin 1)) fun a => ?_
  match a with
  | ⟨0, _⟩ => rfl
  | ⟨1, _⟩ => rfl

/-- A one-entry vector has one index. -/
theorem idx_S1_eq (k k' : S1.Idx) : k = k' := by
  funext a
  match a with
  | ⟨0, h0⟩ =>
    have h : (k (⟨0, h0⟩ : Fin S1.rank)).val < 1 := (k (⟨0, h0⟩ : Fin S1.rank)).isLt
    have h' : (k' (⟨0, h0⟩ : Fin S1.rank)).val < 1 := (k' (⟨0, h0⟩ : Fin S1.rank)).isLt
    exact Fin.ext (by omega)

/-! ## The three parts of the head -/

/-- The per-graph means: sums(g, k) / max(counts g, 1), the counts being a column on one side and a vector on the other. -/
theorem mean_eq (s : FVec Ideal S256x64 .f32) (cn : FVec Ideal S256 .f32) (w : BitVec 32)
    (hc : S256.BroadcastsInDim S256x1 ![0]) (h1 : S256x1.Broadcasts S256x64)
    (h2 : S256x1.BroadcastsInDim S256x64 ![0, 1]) (h3 : S256.BroadcastsInDim S256x1 ![0]) (h4 : S_.BroadcastsInDim S256 ![]) :
    divf s (broadcastTo S256x64 (maximumf (broadcastInDim S256x1 ![0] hc cn) (broadcast S256x1 (FloatOps.ofBits (F := Ideal) .f32 w))) h1)
      = Host.divf s (broadcastInDim S256x64 ![0, 1] h2 (broadcastInDim S256x1 ![0] h3
          (maximumf cn (broadcastInDim S256 ![] h4 (constant (F := Ideal) S_ .f32 w))))) := by
  funext j
  obtain ⟨p, q, rfl⟩ : ∃ (p : Fin 256) (q : Fin 64), j = ix2 p q := ⟨j 0, j 1, eq_ix2 j⟩
  show Ideal.div (s (ix2 p q)) _ = Ideal.div (s (ix2 p q)) _
  congr 1
  rw [lanes_apply, lanes_inDim_apply, maximumf_apply, col_apply, col_apply, maximumf_apply]
  rfl

/-- The bias: the one entry of bl, whichever way it is laid out over the 256 rows. -/
theorem bias_eq (bl : FVec Ideal S1 .f32) (h1 : S1.ShapeCasts S1x1) (h2 : S1x1.Broadcasts S256x1)
    (h3 : S1x1.BroadcastsInDim S256x1 ![0, 1]) (h4 : S1.BroadcastsInDim S1x1 ![1]) :
    broadcastTo S256x1 (shapeCast S1x1 bl h1) h2 = broadcastInDim S256x1 ![0, 1] h3 (broadcastInDim S1x1 ![1] h4 bl) := by
  funext j
  unfold broadcastTo shapeCast broadcastInDim
  exact congrArg bl (idx_S1_eq _ _)

/-- The product: into a zero accumulator the kernel's matmul is the host's dot_general, the changes of format being the identity. -/
theorem mm_eq {sl sr so : Shape} (d : DotDims sl sr so) (X Y : FVec Ideal sl .f32) (W : FVec Ideal sr .f32)
    (hb : FTy.bf16.bits < FTy.f32.bits) (hXY : X = Y) :
    matmul d none (truncf .bf16 X hb) (truncf .bf16 W hb) (constant so .f32 0x00000000#32) = Host.dotGeneral d none Y W := by
  subst hXY
  funext j
  show FloatOps.matmul d none (truncf .bf16 X hb) (truncf .bf16 W hb) (constant so .f32 0x00000000#32) j = _
  rw [Ideal.matmul_constant_zero_apply]
  exact (Ideal.dotGeneral_apply d none .single X W j).symm

/-- The pooling head of the kernel's last region is the reference's head. -/
theorem head_eq (s : FVec Ideal S256x64 .f32) (cn : FVec Ideal S256 .f32) (wl : FVec Ideal S64x1 .f32) (bl : FVec Ideal S1 .f32) :
    out2_4 (F := Ideal) s (broadcastInDim S256x1 ![0] Facts₀.bcast_S256_S256x1_0 cn) wl (shapeCast S1x1 bl Facts₀.shapeCasts_S1_S1x1)
      = Cert.Gcn.head (F := Ideal) s cn wl bl := by
  unfold out2_4
  rw [View.canon_unit_zero hz]
  simp only [View.ld_unit_zero (S := S256x1) hz, View.ld_unit_zero (S := S256x64) hz, View.ld_unit_zero (S := S64x1) hz, View.ld_unit_zero (S := S1x1) hz]
  unfold k2_pay1 Cert.Gcn.head
  dsimp only
  rw [shapeCast_self, shapeCast_self, shapeCast_self]
  exact congrArg₂ addf (mm_eq _ _ _ _ _ (mean_eq s cn _ _ _ _ _ _)) (bias_eq bl _ _ _ _)

/-! ## The last region: one point, five whole-array windows -/

/-- Every window of the last region sits at block (0, 0) at every point of its grid. -/
theorem index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section
variable (V : (c : Dev nD) → (b : Ref sig .tc) → Buf (Elt Ideal) ((c : Thread nD τ).loc b)) (c : Dev nD)

/-- The block of the per-graph sums is the whole array. -/
theorem blk_sums (t : Fin cfg2.N) : iblk2 (F := Ideal) V c 0 t = V c main_v68 := by
  obtain ⟨e0, e1, -⟩ := index_zero t
  funext y
  show V c main_v68 (((cfg2.win 0).blk t).view.emb y) = V c main_v68 y
  refine congrArg (V c main_v68) (funext fun a => Fin.ext ?_)
  match a with
  | ⟨0, _⟩ => show win2_0.index t (0 : Fin 2) * 256 + 1 * (y 0).val = (y 0).val; omega
  | ⟨1, _⟩ => show win2_0.index t (1 : Fin 2) * 64 + 1 * (y 1).val = (y 1).val; omega

/-- The block of the per-graph counts is the whole column. -/
theorem blk_counts (t : Fin cfg2.N) : iblk2 (F := Ideal) V c 1 t = V c main_v73 := by
  obtain ⟨-, -, e0, e1, -⟩ := index_zero t
  funext y
  show V c main_v73 (((cfg2.win 1).blk t).view.emb y) = V c main_v73 y
  refine congrArg (V c main_v73) (funext fun a => Fin.ext ?_)
  match a with
  | ⟨0, _⟩ => show win2_1.index t (0 : Fin 2) * 256 + 1 * (y 0).val = (y 0).val; omega
  | ⟨1, _⟩ => show win2_1.index t (1 : Fin 2) * 1 + 1 * (y 1).val = (y 1).val; omega

/-- The block of the weights is the whole array. -/
theorem blk_weights (t : Fin cfg2.N) : iblk2 (F := Ideal) V c 2 t = V c main_arg7 := by
  obtain ⟨-, -, -, -, e0, e1, -⟩ := index_zero t
  funext y
  show V c main_arg7 (((cfg2.win 2).blk t).view.emb y) = V c main_arg7 y
  refine congrArg (V c main_arg7) (funext fun a => Fin.ext ?_)
  match a with
  | ⟨0, _⟩ => show win2_2.index t (0 : Fin 2) * 64 + 1 * (y 0).val = (y 0).val; omega
  | ⟨1, _⟩ => show win2_2.index t (1 : Fin 2) * 1 + 1 * (y 1).val = (y 1).val; omega

/-- The block of the bias is the whole array. -/
theorem blk_bias (t : Fin cfg2.N) : iblk2 (F := Ideal) V c 3 t = V c main_v74 := by
  obtain ⟨-, -, -, -, -, -, e0, e1, -⟩ := index_zero t
  funext y
  show V c main_v74 (((cfg2.win 3).blk t).view.emb y) = V c main_v74 y
  refine congrArg (V c main_v74) (funext fun a => Fin.ext ?_)
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- What the one point writes back is the head of the arrays the region finds, read through the output's whole-array block. -/
theorem flushed_head (t : Fin cfg2.N) :
    (dat2 (F := Ideal) V c).flushed 4 t
      = ((cfg2.win 4).blk t).view.read (Elt Ideal)
          (out2_4 (F := Ideal) (V c main_v68) (V c main_v73) (V c main_arg7) (V c main_v74)) := by
  show (cfg2.win 4).cut (grid2.coords t) ((dat2 V c).after 4 t) = _
  rw [after2_4, blk_sums, blk_counts, blk_weights, blk_bias]
  obtain ⟨-, -, -, -, -, -, -, -, e0, e1⟩ := index_zero t
  funext y
  show out2_4 (F := Ideal) (V c main_v68) (V c main_v73) (V c main_arg7) (V c main_v74) _
    = out2_4 (F := Ideal) (V c main_v68) (V c main_v73) (V c main_arg7) (V c main_v74) (((cfg2.win 4).blk t).view.emb y)
  refine congrArg (out2_4 (F := Ideal) (V c main_v68) (V c main_v73) (V c main_arg7) (V c main_v74)) (funext fun a => Fin.ext ?_)
  match a with
  | ⟨0, _⟩ => show (y 0).val = win2_4.index t (0 : Fin 2) * 256 + 1 * (y 0).val; omega
  | ⟨1, _⟩ => show (y 1).val = win2_4.index t (1 : Fin 2) * 1 + 1 * (y 1).val; omega

/-- An index of the output array is in point `t`'s block iff each coordinate is in the block's range on its axis. -/
theorem mem_blk_out (t : Fin cfg2.N) (i : S256x1.Idx) :
    i ∈ ((cfg2.win 4).blk t).view.set ↔ ∀ a : Fin 2, win2_4.index t a * S256x1.size a ≤ (i a).val ∧ (i a).val < win2_4.index t a * S256x1.size a + S256x1.size a := by
  show i ∈ ((View.whole main_v75).slice (win2_4.rect t)).set ↔ _
  rw [View.set_slice_whole, Rect.mem_set_unit]
  exact Iff.rfl

end

/-- The output array after the last region: the head of the arrays the region finds. -/
theorem region2 (V : (c : Dev nD) → (b : Ref sig .tc) → Buf (Elt Ideal) ((c : Thread nD τ).loc b)) (c : Dev nD) :
    (dat2 (F := Ideal) V c).arrAt 4 cfg2.N = out2_4 (F := Ideal) (V c main_v68) (V c main_v73) (V c main_arg7) (V c main_v74) := by
  refine (dat2 (F := Ideal) V c).arrAt_eq_of_cover 4 _ (fun t _ => flushed_head V c t) fun i => ?_
  refine ⟨t2_0, flush2_4 t2_0, ?_⟩
  obtain ⟨-, -, -, -, -, -, -, -, e0, e1⟩ := index_zero t2_0
  rw [mem_blk_out]
  intro a
  match a with
  | ⟨0, _⟩ =>
    show win2_4.index t2_0 (0 : Fin 2) * 256 ≤ (i 0).val ∧ (i 0).val < win2_4.index t2_0 (0 : Fin 2) * 256 + 256
    have h : (i 0).val < 256 := (i 0).isLt
    omega
  | ⟨1, _⟩ =>
    show win2_4.index t2_0 (1 : Fin 2) * 1 ≤ (i 1).val ∧ (i 1).val < win2_4.index t2_0 (1 : Fin 2) * 1 + 1
    have h : (i 1).val < 1 := (i 1).isLt
    omega

end Cert.KernelIdeal.Reg

end
-- ==== Proof.KValue.lean ====
/-
  What the idealized kernel's result buffer holds at the end of @main: the specification's network of the arguments.

  The buffer contents are followed through @main's nine segments. The first three stretches leave the edge endpoints
  (with self loops), and the per-edge weights dinv[src] · dinv[dst]; the first region leaves x · W1; the next stretches
  aggregate it over the edges, add the bias and clamp at 0; the second region multiplies by W2; the last stretch
  aggregates again and forms the per-graph sums and counts; the last region divides, multiplies by Wl and adds bl.
  A buffer a segment does not write is carried through it unchanged.
-/
import proofs.«142191_j37194416783379_2_alg».proof.Proof.KHost
import proofs.«142191_j37194416783379_2_alg».proof.Proof.KRegionMatmul
import proofs.«142191_j37194416783379_2_alg».proof.Proof.KRegionHead

set_option maxRecDepth 16384

noncomputable section

namespace Cert.KernelIdeal.KVal

open Idealize.ShloMosaic Idealize.ShloMosaic.TcCoe Idealize.ShloMosaic.StableHlo Idealize.SL.Sem
open Cert.KernelIdeal Cert.KernelIdeal.Gen Cert.KernelIdeal.Host HostRead

/-! ## Each stretch from what it found, the found contents named -/

section Stretches

variable {F : FTy → Type} [FloatOps F] (W : Valuation τ sig (Elt F))

/-- The clamp at 0 (the outlined relu's three operations). -/
theorem s11_relu : after hostOps1_1 W (Proc.devRef .tc main_v48) = Cert.Gcn.relu (W (Proc.devRef .tc main_v47)) := by
  have h0 := tnullary_at outs1_1 W 0 (.of main_call1_cst) (constant (F := F) S_ .f32 0x00000000#32) rfl (by decide)
  have h1 := tunary_at outs1_1 W 1 (.of main_call1_cst) (.of main_call1_v0) (broadcastInDim S100000x64 ![] Facts₀.bcast_S_S100000x64)
    rfl (by decide) (by decide) _ h0
  have hx : HEq (after hostOps1_1 W (Proc.devRef .tc main_v47)) (W (Proc.devRef .tc main_v47)) :=
    heq_of_eq (keep outs1_1 main_v47 (by decide) W)
  exact eq_of_heq (tbinary_at outs1_1 W 2 (.of main_v47) (.of main_call1_v0) (.of main_v48) maximumf rfl (by decide) (by decide)
    (by decide) _ _ hx h1)

theorem t01 {p : IVec S100000 1} {r z : FVec F S100000 .f32} (hp : W (Proc.devRef .tc main_v12) = p)
    (hr : W (Proc.devRef .tc main_v13) = r) (hz : W (Proc.devRef .tc main_v14) = z) :
    after hostOps0_1 W (Proc.devRef .tc main_v15) = select p r z := by
  rw [s01_dinv, hp, hr, hz]

theorem t02 {dv : FVec F S100000 .f32} {s d : IVec S1300000 32} (h15 : W (Proc.devRef .tc main_v15) = dv)
    (h3 : W (Proc.devRef .tc main_v3) = s) (h6 : W (Proc.devRef .tc main_v6) = d) :
    after hostOps0_2 W (Proc.devRef .tc main_v30)
      = mulf (Host.gather gather_S100000_S1300000x1_S1300000_n_0_n_n_0_1_1 dv (Cert.Gcn.wrap s))
          (Host.gather gather_S100000_S1300000x1_S1300000_n_0_n_n_0_1_1 dv (Cert.Gcn.wrap d)) := by
  rw [s02_norm, h15, h3, h6]

theorem t1 {n : FVec F S1300000 .f32} {s d : IVec S1300000 32} {h : FVec F S100000x64 .f32} {b : FVec F S64 .f32}
    (h30 : W (Proc.devRef .tc main_v30) = n) (h3 : W (Proc.devRef .tc main_v3) = s) (h6 : W (Proc.devRef .tc main_v6) = d)
    (h31 : W (Proc.devRef .tc main_v31) = h) (h4 : W (Proc.devRef .tc main_arg4) = b) :
    after hostOps1 W (Proc.devRef .tc main_v47) = Cert.Gcn.agg n s d h b := by
  rw [s1_agg, h30, h3, h6, h31, h4]

theorem t11 {x : FVec F S100000x64 .f32} (h47 : W (Proc.devRef .tc main_v47) = x) :
    after hostOps1_1 W (Proc.devRef .tc main_v48) = Cert.Gcn.relu x := by
  rw [s11_relu, h47]

theorem t2_sums {g : IVec S100000 32} {n : FVec F S1300000 .f32} {s d : IVec S1300000 32} {h : FVec F S100000x64 .f32}
    {b : FVec F S64 .f32} (h2 : W (Proc.devRef .tc main_arg2) = g)
    (h30 : W (Proc.devRef .tc main_v30) = n) (h3 : W (Proc.devRef .tc main_v3) = s) (h6 : W (Proc.devRef .tc main_v6) = d)
    (h49 : W (Proc.devRef .tc main_v49) = h) (h6' : W (Proc.devRef .tc main_arg6) = b) :
    after hostOps2 W (Proc.devRef .tc main_v68) = Cert.Gcn.sums g (Cert.Gcn.agg n s d h b) := by
  rw [s2_sums, h2, h30, h3, h6, h49, h6']

theorem t2_cnts {g : IVec S100000 32} (h2 : W (Proc.devRef .tc main_arg2) = g) :
    after hostOps2 W (Proc.devRef .tc main_v73)
      = broadcastInDim S256x1 ![0] Facts₀.bcast_S256_S256x1_0 (Cert.Gcn.cnts (F := F) g) := by
  rw [s2_cnts, h2]

theorem t2_bias {b : FVec F S1 .f32} (h8 : W (Proc.devRef .tc main_arg8) = b) :
    after hostOps2 W (Proc.devRef .tc main_v74) = shapeCast S1x1 b Facts₀.shapeCasts_S1_S1x1 := by
  rw [s2_bias, h8]

end Stretches

variable (m : (ℓ : Loc nD τ sig) → Buf (Elt Ideal) ℓ) (ρ : Dev nD → PrngReg) (c : Dev nD)

/-! ## A buffer a segment does not write -/

theorem k1 (r : Ref sig .tc) (h : r ∉ ys0) : W1 m ρ c (Proc.devRef .tc r) = W0 m ρ c (Proc.devRef .tc r) := keep outs0 r h _
theorem k2 (r : Ref sig .tc) (h : r ∉ ys0_1) : W2 m ρ c (Proc.devRef .tc r) = W1 m ρ c (Proc.devRef .tc r) := keep outs0_1 r h _
theorem k3 (r : Ref sig .tc) (h : r ∉ ys0_2) : W3 m ρ c (Proc.devRef .tc r) = W2 m ρ c (Proc.devRef .tc r) := keep outs0_2 r h _
theorem k4 (r : Ref sig .tc) (h : ∀ w, Pipeline.arrRef spec0 w ≠ r) : W4 m ρ c (Proc.devRef .tc r) = W3 m ρ c (Proc.devRef .tc r) :=
  W4_of_ne m ρ c r h
theorem k5 (r : Ref sig .tc) (h : r ∉ ys1) : W5 m ρ c (Proc.devRef .tc r) = W4 m ρ c (Proc.devRef .tc r) := keep outs1 r h _
theorem k6 (r : Ref sig .tc) (h : r ∉ ys1_1) : W6 m ρ c (Proc.devRef .tc r) = W5 m ρ c (Proc.devRef .tc r) := keep outs1_1 r h _
theorem k7 (r : Ref sig .tc) (h : ∀ w, Pipeline.arrRef spec1 w ≠ r) : W7 m ρ c (Proc.devRef .tc r) = W6 m ρ c (Proc.devRef .tc r) :=
  W7_of_ne m ρ c r h
theorem k8 (r : Ref sig .tc) (h : r ∉ ys2) : W8 m ρ c (Proc.devRef .tc r) = W7 m ρ c (Proc.devRef .tc r) := keep outs2 r h _

/-- A buffer none of the first three stretches writes. -/
theorem thru3 (r : Ref sig .tc) (h1 : r ∉ ys0) (h2 : r ∉ ys0_1) (h3 : r ∉ ys0_2) :
    W3 m ρ c (Proc.devRef .tc r) = W0 m ρ c (Proc.devRef .tc r) :=
  (k3 m ρ c r h3).trans ((k2 m ρ c r h2).trans (k1 m ρ c r h1))
/-- … nor the first region, nor the next two stretches. -/
theorem thru6 (r : Ref sig .tc) (h1 : r ∉ ys0) (h2 : r ∉ ys0_1) (h3 : r ∉ ys0_2) (h4 : ∀ w, Pipeline.arrRef spec0 w ≠ r)
    (h5 : r ∉ ys1) (h6 : r ∉ ys1_1) : W6 m ρ c (Proc.devRef .tc r) = W0 m ρ c (Proc.devRef .tc r) :=
  (k6 m ρ c r h6).trans ((k5 m ρ c r h5).trans ((k4 m ρ c r h4).trans (thru3 m ρ c r h1 h2 h3)))
/-- … nor the second region. -/
theorem thru7 (r : Ref sig .tc) (h1 : r ∉ ys0) (h2 : r ∉ ys0_1) (h3 : r ∉ ys0_2) (h4 : ∀ w, Pipeline.arrRef spec0 w ≠ r)
    (h5 : r ∉ ys1) (h6 : r ∉ ys1_1) (h7 : ∀ w, Pipeline.arrRef spec1 w ≠ r) :
    W7 m ρ c (Proc.devRef .tc r) = W0 m ρ c (Proc.devRef .tc r) :=
  (k7 m ρ c r h7).trans (thru6 m ρ c r h1 h2 h3 h4 h5 h6)

/-! ## The endpoints and the weights -/

theorem w1_src : W1 m ρ c (Proc.devRef .tc main_v3) = Cert.Gcn.src (m ((c : Thread nD τ).loc main_arg1)) := s0_src (W0 m ρ c)
theorem w1_dst : W1 m ρ c (Proc.devRef .tc main_v6) = Cert.Gcn.dst (m ((c : Thread nD τ).loc main_arg1)) := s0_dst (W0 m ρ c)

theorem w2_dinv : W2 m ρ c (Proc.devRef .tc main_v15) = Cert.Gcn.dinv (F := Ideal) (Cert.Gcn.dst (m ((c : Thread nD τ).loc main_arg1))) :=
  t01 (W1 m ρ c) (s0_pos (W0 m ρ c)) (s0_rsqrt (W0 m ρ c)) (s0_zero (W0 m ρ c))

theorem w2_src : W2 m ρ c (Proc.devRef .tc main_v3) = Cert.Gcn.src (m ((c : Thread nD τ).loc main_arg1)) := (k2 m ρ c _ (by decide)).trans (w1_src m ρ c)
theorem w2_dst : W2 m ρ c (Proc.devRef .tc main_v6) = Cert.Gcn.dst (m ((c : Thread nD τ).loc main_arg1)) := (k2 m ρ c _ (by decide)).trans (w1_dst m ρ c)

theorem w3_norm : W3 m ρ c (Proc.devRef .tc main_v30) = Cert.Gcn.norm (F := Ideal) (Cert.Gcn.src (m ((c : Thread nD τ).loc main_arg1))) (Cert.Gcn.dst (m ((c : Thread nD τ).loc main_arg1))) :=
  t02 (W2 m ρ c) (w2_dinv m ρ c) (w2_src m ρ c) (w2_dst m ρ c)
theorem w3_src : W3 m ρ c (Proc.devRef .tc main_v3) = Cert.Gcn.src (m ((c : Thread nD τ).loc main_arg1)) := (k3 m ρ c _ (by decide)).trans (w2_src m ρ c)
theorem w3_dst : W3 m ρ c (Proc.devRef .tc main_v6) = Cert.Gcn.dst (m ((c : Thread nD τ).loc main_arg1)) := (k3 m ρ c _ (by decide)).trans (w2_dst m ρ c)

/-! ## The first dense product and the first aggregation -/

theorem w4_mm : W4 m ρ c (Proc.devRef .tc main_v31) = Cert.Gcn.mm1 (F := Ideal) (m ((c : Thread nD τ).loc main_arg0)) (m ((c : Thread nD τ).loc main_arg3)) := by
  refine (W4_arr m ρ c 2).trans ((Reg.region0 (V3 m ρ) c).trans ?_)
  exact congrArg₂ (Cert.Gcn.mm1 (F := Ideal)) (thru3 m ρ c main_arg0 (by decide) (by decide) (by decide))
    (thru3 m ρ c main_arg3 (by decide) (by decide) (by decide))

theorem w4_norm : W4 m ρ c (Proc.devRef .tc main_v30) = Cert.Gcn.norm (F := Ideal) (Cert.Gcn.src (m ((c : Thread nD τ).loc main_arg1))) (Cert.Gcn.dst (m ((c : Thread nD τ).loc main_arg1))) :=
  (k4 m ρ c _ (by decide)).trans (w3_norm m ρ c)
theorem w4_src : W4 m ρ c (Proc.devRef .tc main_v3) = Cert.Gcn.src (m ((c : Thread nD τ).loc main_arg1)) := (k4 m ρ c _ (by decide)).trans (w3_src m ρ c)
theorem w4_dst : W4 m ρ c (Proc.devRef .tc main_v6) = Cert.Gcn.dst (m ((c : Thread nD τ).loc main_arg1)) := (k4 m ρ c _ (by decide)).trans (w3_dst m ρ c)

theorem w5_layer : W5 m ρ c (Proc.devRef .tc main_v47)
    = Cert.Gcn.layer (F := Ideal) (Cert.Gcn.src (m ((c : Thread nD τ).loc main_arg1))) (Cert.Gcn.dst (m ((c : Thread nD τ).loc main_arg1))) (Cert.Gcn.mm1 (F := Ideal) (m ((c : Thread nD τ).loc main_arg0)) (m ((c : Thread nD τ).loc main_arg3))) (m ((c : Thread nD τ).loc main_arg4)) :=
  t1 (W4 m ρ c) (w4_norm m ρ c) (w4_src m ρ c) (w4_dst m ρ c) (w4_mm m ρ c)
    ((k4 m ρ c main_arg4 (by decide)).trans (thru3 m ρ c main_arg4 (by decide) (by decide) (by decide)))

theorem w5_norm : W5 m ρ c (Proc.devRef .tc main_v30) = Cert.Gcn.norm (F := Ideal) (Cert.Gcn.src (m ((c : Thread nD τ).loc main_arg1))) (Cert.Gcn.dst (m ((c : Thread nD τ).loc main_arg1))) := (k5 m ρ c _ (by decide)).trans (w4_norm m ρ c)
theorem w5_src : W5 m ρ c (Proc.devRef .tc main_v3) = Cert.Gcn.src (m ((c : Thread nD τ).loc main_arg1)) := (k5 m ρ c _ (by decide)).trans (w4_src m ρ c)
theorem w5_dst : W5 m ρ c (Proc.devRef .tc main_v6) = Cert.Gcn.dst (m ((c : Thread nD τ).loc main_arg1)) := (k5 m ρ c _ (by decide)).trans (w4_dst m ρ c)

/-! ## The clamp, the second dense product and the second aggregation -/

theorem w6_relu : W6 m ρ c (Proc.devRef .tc main_v48) = Cert.Gcn.relu (Cert.Gcn.layer (F := Ideal) (Cert.Gcn.src (m ((c : Thread nD τ).loc main_arg1))) (Cert.Gcn.dst (m ((c : Thread nD τ).loc main_arg1))) (Cert.Gcn.mm1 (F := Ideal) (m ((c : Thread nD τ).loc main_arg0)) (m ((c : Thread nD τ).loc main_arg3))) (m ((c : Thread nD τ).loc main_arg4))) := t11 (W5 m ρ c) (w5_layer m ρ c)
theorem w6_norm : W6 m ρ c (Proc.devRef .tc main_v30) = Cert.Gcn.norm (F := Ideal) (Cert.Gcn.src (m ((c : Thread nD τ).loc main_arg1))) (Cert.Gcn.dst (m ((c : Thread nD τ).loc main_arg1))) := (k6 m ρ c _ (by decide)).trans (w5_norm m ρ c)
theorem w6_src : W6 m ρ c (Proc.devRef .tc main_v3) = Cert.Gcn.src (m ((c : Thread nD τ).loc main_arg1)) := (k6 m ρ c _ (by decide)).trans (w5_src m ρ c)
theorem w6_dst : W6 m ρ c (Proc.devRef .tc main_v6) = Cert.Gcn.dst (m ((c : Thread nD τ).loc main_arg1)) := (k6 m ρ c _ (by decide)).trans (w5_dst m ρ c)

theorem w7_mm : W7 m ρ c (Proc.devRef .tc main_v49) = (Cert.Gcn.mm2 (F := Ideal) (Cert.Gcn.relu (Cert.Gcn.layer (F := Ideal) (Cert.Gcn.src (m ((c : Thread nD τ).loc main_arg1))) (Cert.Gcn.dst (m ((c : Thread nD τ).loc main_arg1))) (Cert.Gcn.mm1 (F := Ideal) (m ((c : Thread nD τ).loc main_arg0)) (m ((c : Thread nD τ).loc main_arg3))) (m ((c : Thread nD τ).loc main_arg4)))) (m ((c : Thread nD τ).loc main_arg5))) := by
  refine (W7_arr m ρ c 2).trans ((Reg.region1 (V6 m ρ) c).trans ?_)
  exact congrArg₂ (Cert.Gcn.mm2 (F := Ideal)) (w6_relu m ρ c)
    (thru6 m ρ c main_arg5 (by decide) (by decide) (by decide) (by decide) (by decide) (by decide))

theorem w7_norm : W7 m ρ c (Proc.devRef .tc main_v30) = Cert.Gcn.norm (F := Ideal) (Cert.Gcn.src (m ((c : Thread nD τ).loc main_arg1))) (Cert.Gcn.dst (m ((c : Thread nD τ).loc main_arg1))) := (k7 m ρ c _ (by decide)).trans (w6_norm m ρ c)
theorem w7_src : W7 m ρ c (Proc.devRef .tc main_v3) = Cert.Gcn.src (m ((c : Thread nD τ).loc main_arg1)) := (k7 m ρ c _ (by decide)).trans (w6_src m ρ c)
theorem w7_dst : W7 m ρ c (Proc.devRef .tc main_v6) = Cert.Gcn.dst (m ((c : Thread nD τ).loc main_arg1)) := (k7 m ρ c _ (by decide)).trans (w6_dst m ρ c)

/-! ## The pooling and the head -/

theorem w8_sums : W8 m ρ c (Proc.devRef .tc main_v68) = Cert.Gcn.sums (m ((c : Thread nD τ).loc main_arg2)) (Cert.Gcn.layer (F := Ideal) (Cert.Gcn.src (m ((c : Thread nD τ).loc main_arg1))) (Cert.Gcn.dst (m ((c : Thread nD τ).loc main_arg1))) (Cert.Gcn.mm2 (F := Ideal) (Cert.Gcn.relu (Cert.Gcn.layer (F := Ideal) (Cert.Gcn.src (m ((c : Thread nD τ).loc main_arg1))) (Cert.Gcn.dst (m ((c : Thread nD τ).loc main_arg1))) (Cert.Gcn.mm1 (F := Ideal) (m ((c : Thread nD τ).loc main_arg0)) (m ((c : Thread nD τ).loc main_arg3))) (m ((c : Thread nD τ).loc main_arg4)))) (m ((c : Thread nD τ).loc main_arg5))) (m ((c : Thread nD τ).loc main_arg6))) :=
  t2_sums (W7 m ρ c) (thru7 m ρ c main_arg2 (by decide) (by decide) (by decide) (by decide) (by decide) (by decide) (by decide)) (w7_norm m ρ c) (w7_src m ρ c) (w7_dst m ρ c) (w7_mm m ρ c) (thru7 m ρ c main_arg6 (by decide) (by decide) (by decide) (by decide) (by decide) (by decide) (by decide))

theorem w8_cnts : W8 m ρ c (Proc.devRef .tc main_v73)
    = broadcastInDim S256x1 ![0] Facts₀.bcast_S256_S256x1_0 (Cert.Gcn.cnts (F := Ideal) (m ((c : Thread nD τ).loc main_arg2))) :=
  t2_cnts (W7 m ρ c) (thru7 m ρ c main_arg2 (by decide) (by decide) (by decide) (by decide) (by decide) (by decide) (by decide))

theorem w8_bias : W8 m ρ c (Proc.devRef .tc main_v74) = shapeCast S1x1 (m ((c : Thread nD τ).loc main_arg8)) Facts₀.shapeCasts_S1_S1x1 :=
  t2_bias (W7 m ρ c) (thru7 m ρ c main_arg8 (by decide) (by decide) (by decide) (by decide) (by decide) (by decide) (by decide))

theorem w8_wl : W8 m ρ c (Proc.devRef .tc main_arg7) = (m ((c : Thread nD τ).loc main_arg7)) :=
  (k8 m ρ c main_arg7 (by decide)).trans (thru7 m ρ c main_arg7 (by decide) (by decide) (by decide) (by decide) (by decide) (by decide) (by decide))

/-- The head's stored block of equal operands. -/
theorem head_congr {s s' : Vec Ideal S256x64 .f32} {n n' : Vec Ideal S256x1 .f32} {w w' : Vec Ideal S64x1 .f32}
    {b b' : Vec Ideal S1x1 .f32} (hs : s = s') (hn : n = n') (hw : w = w') (hb : b = b') :
    out2_4 (F := Ideal) s n w b = out2_4 (F := Ideal) s' n' w' b' := by
  rw [hs, hn, hw, hb]

/-- The result buffer at the end of @main is the network of the argument arrays. -/
theorem value : W9 m ρ c (Proc.devRef .tc main_v75)
    = Cert.Gcn.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 4).trans ((Reg.region2 (V8 m ρ) c).trans ?_)
  refine (head_congr (w8_sums m ρ c) (w8_cnts m ρ c) (w8_wl m ρ c) (w8_bias m ρ c)).trans ?_
  exact Reg.head_eq _ _ _ _

end Cert.KernelIdeal.KVal

end
-- ==== Proof.RefOuts.lean ====
/-
  The reference program's line of host operations writes every buffer once: the buffers it writes, in order.
-/
import proofs.«142191_j37194416783379_2_alg».proof.Proof.RefRun
import proofs.«142191_j37194416783379_2_alg».proof.Proof.LibHostTyped

set_option maxRecDepth 16384
noncomputable section
namespace Cert.ReferenceIdeal.RefValue
open Idealize.ShloMosaic Idealize.ShloMosaic.TcCoe Idealize.ShloMosaic.StableHlo Idealize.SL.Sem Cert.ReferenceIdeal Cert.ReferenceIdeal.ValueP HostRead

variable {F : FTy → Type} [FloatOps F]

/-- The buffers the operations write, in order. -/
abbrev ys : List (Ref sig .tc) := [main_v0, main_v1, main_v2, main_v3, main_v4, main_v5, main_v6, main_v7, main_cst, main_v8, main_cst_0, main_v9, main_v10, main_v11, main_cst_1, main_v12, main_v13, main_v14, main_cst_2, main_v15, main_v16, main_c, main_v17, main_v18, main_c_3, main_v19, main_v20, main_v21, main_v22, main_v23, main_c_4, main_v24, main_v25, main_c_5, main_v26, main_v27, main_v28, main_v29, main_v30, main_v31, main_v32, main_c_6, main_v33, main_v34, main_c_7, main_v35, main_v36, main_v37, main_v38, main_v39, main_v40, main_v41, main_cst_8, main_v42, main_v43, main_v44, main_v45, main_v46, main_v47, main_call1_cst, main_call1_v0, main_v48, main_v49, main_cst_9, main_v50, main_cst_10, main_v51, main_v52, main_v53, main_cst_11, main_v54, main_v55, main_v56, main_cst_12, main_v57, main_v58, main_c_13, main_v59, main_v60, main_c_14, main_v61, main_v62, main_v63, main_v64, main_v65, main_c_15, main_v66, main_v67, main_c_16, main_v68, main_v69, main_v70, main_v71, main_v72, main_v73, main_v74, main_c_17, main_v75, main_v76, main_c_18, main_v77, main_v78, main_v79, main_v80, main_v81, main_v82, main_v83, main_cst_19, main_v84, main_v85, main_v86, main_v87, main_v88, main_v89, main_cst_20, main_v90, main_v91, main_v92, main_cst_21, main_v93, main_cst_22, main_v94, main_v95, main_v96, main_cst_23, main_v97, main_v98, main_v99, main_v100, main_v101, main_v102, main_v103, main_v104, main_v105]

/-- No buffer is written twice. -/
theorem ys_nodup : ys.Nodup := by decide

/-- The k-th operation writes exactly the k-th listed buffer. -/
theorem outs : Outs (ops (F := F)) ys := by
  unfold Outs ops ys
  repeat (first | exact List.Forall₂.nil | refine List.Forall₂.cons rfl ?_)

end Cert.ReferenceIdeal.RefValue
end
-- ==== Proof.RefValue.lean ====
/-
  The reference program's result as the specification function.

  The reference is one line of 134 host operations, each writing a buffer of its own that no later operation writes
  again. So after the whole line every written buffer holds its operation's function of what the operand buffers hold
  after the whole line, and the nine argument buffers, which the line never writes, hold what they held at the start.
  First one equation per operation in that form; then one lemma per stage of the network (edge sources and targets,
  degrees, their inverse square roots, edge weights, the two aggregations, the activation, the dense products, the
  per-graph sums and counts, the head), each read off from the equations of its few operations and the earlier stages:
  the specification's stages are built from the same host operations in the same order, so each stage closes by
  unfolding. The last stage is the result buffer, and it is the whole network on the argument arrays.
-/
import proofs.«142191_j37194416783379_2_alg».proof.Proof.Spec
import proofs.«142191_j37194416783379_2_alg».proof.Proof.RefRun
import proofs.«142191_j37194416783379_2_alg».proof.Proof.LibHostTyped
import proofs.«142191_j37194416783379_2_alg».proof.Proof.RefOuts

set_option maxRecDepth 16384
noncomputable section
namespace Cert.ReferenceIdeal.RefValue
open Idealize.ShloMosaic Idealize.ShloMosaic.TcCoe Idealize.ShloMosaic.StableHlo Idealize.SL.Sem Cert.ReferenceIdeal Cert.ReferenceIdeal.Facts₀ Cert.ReferenceIdeal.ValueP HostRead

variable {F : FTy → Type} [FloatOps F]

/-! ## One equation per operation, at the contents after the whole line -/

theorem e0 (V : Valuation τ sig (Elt F)) : after ops V (Proc.devRef .tc main_v0) = (iotaInDim S100000 32 0) :=
  nullary_at outs V 0 main_v0 _ _ rfl (by decide)

theorem e1 (V : Valuation τ sig (Elt F)) : after ops V (Proc.devRef .tc main_v1) = ((extractStridedSlice S1x1200000 ![0, 0] · slices_S2x1200000_S1x1200000_0_0) : (⟨S2x1200000, .i32⟩ : BufTy).Contents (Elt F) → (⟨S1x1200000, .i32⟩ : BufTy).Contents (Elt F)) (after ops V (Proc.devRef .tc main_arg1)) :=
  unary_at outs V 1 main_arg1 main_v1 _ _ _ rfl (by decide) (by decide)

theorem e2 (V : Valuation τ sig (Elt F)) : after ops V (Proc.devRef .tc main_v2) = shapeCast main_v2.ty.shape (after ops V (Proc.devRef .tc main_v1)) shapeCasts_S1x1200000_S1200000 :=
  reshape_at outs V 2 main_v1 main_v2 rfl shapeCasts_S1x1200000_S1200000 _ _ rfl (by decide) (by decide)

theorem e3 (V : Valuation τ sig (Elt F)) : after ops V (Proc.devRef .tc main_v3) = ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)) (after ops V (Proc.devRef .tc main_v2)) (after ops V (Proc.devRef .tc main_v0)) :=
  binary_at outs V 3 main_v2 main_v0 main_v3 _ _ _ _ rfl (by decide) (by decide) (by decide)

theorem e4 (V : Valuation τ sig (Elt F)) : after ops V (Proc.devRef .tc main_v4) = ((extractStridedSlice S1x1200000 ![1, 0] · slices_S2x1200000_S1x1200000_1_0) : (⟨S2x1200000, .i32⟩ : BufTy).Contents (Elt F) → (⟨S1x1200000, .i32⟩ : BufTy).Contents (Elt F)) (after ops V (Proc.devRef .tc main_arg1)) :=
  unary_at outs V 4 main_arg1 main_v4 _ _ _ rfl (by decide) (by decide)

theorem e5 (V : Valuation τ sig (Elt F)) : after ops V (Proc.devRef .tc main_v5) = shapeCast main_v5.ty.shape (after ops V (Proc.devRef .tc main_v4)) shapeCasts_S1x1200000_S1200000 :=
  reshape_at outs V 5 main_v4 main_v5 rfl shapeCasts_S1x1200000_S1200000 _ _ rfl (by decide) (by decide)

theorem e6 (V : Valuation τ sig (Elt F)) : after ops V (Proc.devRef .tc main_v6) = ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)) (after ops V (Proc.devRef .tc main_v5)) (after ops V (Proc.devRef .tc main_v0)) :=
  binary_at outs V 6 main_v5 main_v0 main_v6 _ _ _ _ rfl (by decide) (by decide) (by decide)

theorem e7 (V : Valuation τ sig (Elt F)) : after ops V (Proc.devRef .tc main_v7) = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (after ops V (Proc.devRef .tc main_arg0)) (after ops V (Proc.devRef .tc main_arg3)) :=
  binary_at outs V 7 main_arg0 main_arg3 main_v7 _ _ _ _ rfl (by decide) (by decide) (by decide)

theorem e8 (V : Valuation τ sig (Elt F)) : after ops V (Proc.devRef .tc main_cst) = (constant S_ .f32 0x3F800000#32) :=
  nullary_at outs V 8 main_cst _ _ rfl (by decide)

theorem e9 (V : Valuation τ sig (Elt F)) : after ops V (Proc.devRef .tc main_v8) = (broadcastInDim S1300000 ![] bcast_S_S1300000 : (⟨S_, .f32⟩ : BufTy).Contents (Elt F) → (⟨S1300000, .f32⟩ : BufTy).Contents (Elt F)) (after ops V (Proc.devRef .tc main_cst)) :=
  unary_at outs V 9 main_cst main_v8 _ _ _ rfl (by decide) (by decide)

theorem e10 (V : Valuation τ sig (Elt F)) : after ops V (Proc.devRef .tc main_cst_0) = (constant S_ .f32 0x00000000#32) :=
  nullary_at outs V 10 main_cst_0 _ _ rfl (by decide)

theorem e11 (V : Valuation τ sig (Elt F)) : after ops V (Proc.devRef .tc main_v9) = (broadcastInDim S100000 ![] bcast_S_S100000 : (⟨S_, .f32⟩ : BufTy).Contents (Elt F) → (⟨S100000, .f32⟩ : BufTy).Contents (Elt F)) (after ops V (Proc.devRef .tc main_cst_0)) :=
  unary_at outs V 11 main_cst_0 main_v9 _ _ _ rfl (by decide) (by decide)

theorem e12 (V : Valuation τ sig (Elt F)) : after ops V (Proc.devRef .tc main_v10) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v6)) :=
  unary_at outs V 12 main_v6 main_v10 _ _ _ rfl (by decide) (by decide)

theorem e13 (V : Valuation τ sig (Elt F)) : after ops V (Proc.devRef .tc main_v11) = ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)) (after ops V (Proc.devRef .tc main_v9)) (after ops V (Proc.devRef .tc main_v10)) (after ops V (Proc.devRef .tc main_v8)) :=
  ternary_at outs V 13 main_v9 main_v10 main_v8 main_v11 _ _ _ _ _ rfl (by decide) (by decide) (by decide) (by decide)

theorem e14 (V : Valuation τ sig (Elt F)) : after ops V (Proc.devRef .tc main_cst_1) = (constant S_ .f32 0x00000000#32) :=
  nullary_at outs V 14 main_cst_1 _ _ rfl (by decide)

theorem e15 (V : Valuation τ sig (Elt F)) : after ops V (Proc.devRef .tc main_v12) = (broadcastInDim S100000 ![] bcast_S_S100000 : (⟨S_, .f32⟩ : BufTy).Contents (Elt F) → (⟨S100000, .f32⟩ : BufTy).Contents (Elt F)) (after ops V (Proc.devRef .tc main_cst_1)) :=
  unary_at outs V 15 main_cst_1 main_v12 _ _ _ rfl (by decide) (by decide)

theorem e16 (V : Valuation τ sig (Elt F)) : after ops V (Proc.devRef .tc main_v13) = (cmpf .ogt : (⟨S100000, .f32⟩ : BufTy).Contents (Elt F) → (⟨S100000, .f32⟩ : BufTy).Contents (Elt F) → (⟨S100000, .i1⟩ : BufTy).Contents (Elt F)) (after ops V (Proc.devRef .tc main_v11)) (after ops V (Proc.devRef .tc main_v12)) :=
  binary_at outs V 16 main_v11 main_v12 main_v13 _ _ _ _ rfl (by decide) (by decide) (by decide)

theorem e17 (V : Valuation τ sig (Elt F)) : after ops V (Proc.devRef .tc main_v14) = (Host.rsqrt : (⟨S100000, .f32⟩ : BufTy).Contents (Elt F) → (⟨S100000, .f32⟩ : BufTy).Contents (Elt F)) (after ops V (Proc.devRef .tc main_v11)) :=
  unary_at outs V 17 main_v11 main_v14 _ _ _ rfl (by decide) (by decide)

theorem e18 (V : Valuation τ sig (Elt F)) : after ops V (Proc.devRef .tc main_cst_2) = (constant S_ .f32 0x00000000#32) :=
  nullary_at outs V 18 main_cst_2 _ _ rfl (by decide)

theorem e19 (V : Valuation τ sig (Elt F)) : after ops V (Proc.devRef .tc main_v15) = (broadcastInDim S100000 ![] bcast_S_S100000 : (⟨S_, .f32⟩ : BufTy).Contents (Elt F) → (⟨S100000, .f32⟩ : BufTy).Contents (Elt F)) (after ops V (Proc.devRef .tc main_cst_2)) :=
  unary_at outs V 19 main_cst_2 main_v15 _ _ _ rfl (by decide) (by decide)

theorem e20 (V : Valuation τ sig (Elt F)) : after ops V (Proc.devRef .tc main_v16) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v13)) (after ops V (Proc.devRef .tc main_v14)) (after ops V (Proc.devRef .tc main_v15)) :=
  eq_of_heq (tternary_at outs V 20 (TRef.of (T := ⟨S100000, .i1⟩) main_v13) (TRef.of (T := ⟨S100000, .f32⟩) main_v14) (TRef.of (T := ⟨S100000, .f32⟩) main_v15) (TRef.of (T := ⟨S100000, .f32⟩) main_v16) select rfl (by decide) (by decide) (by decide) (by decide) _ _ _ HEq.rfl HEq.rfl HEq.rfl)

theorem e21 (V : Valuation τ sig (Elt F)) : after ops V (Proc.devRef .tc main_c) = (constantI S_ 32 0#32) :=
  nullary_at outs V 21 main_c _ _ rfl (by decide)

theorem e22 (V : Valuation τ sig (Elt F)) : after ops V (Proc.devRef .tc main_v17) = (broadcastInDim S1300000 ![] bcast_S_S1300000 : (⟨S_, .i32⟩ : BufTy).Contents (Elt F) → (⟨S1300000, .i32⟩ : BufTy).Contents (Elt F)) (after ops V (Proc.devRef .tc main_c)) :=
  unary_at outs V 22 main_c main_v17 _ _ _ rfl (by decide) (by decide)

theorem e23 (V : Valuation τ sig (Elt F)) : after ops V (Proc.devRef .tc main_v18) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v3)) (after ops V (Proc.devRef .tc main_v17)) :=
  binary_at outs V 23 main_v3 main_v17 main_v18 _ _ _ _ rfl (by decide) (by decide) (by decide)

theorem e24 (V : Valuation τ sig (Elt F)) : after ops V (Proc.devRef .tc main_c_3) = (constantI S_ 32 100000#32) :=
  nullary_at outs V 24 main_c_3 _ _ rfl (by decide)

theorem e25 (V : Valuation τ sig (Elt F)) : after ops V (Proc.devRef .tc main_v19) = (broadcastInDim S1300000 ![] bcast_S_S1300000 : (⟨S_, .i32⟩ : BufTy).Contents (Elt F) → (⟨S1300000, .i32⟩ : BufTy).Contents (Elt F)) (after ops V (Proc.devRef .tc main_c_3)) :=
  unary_at outs V 25 main_c_3 main_v19 _ _ _ rfl (by decide) (by decide)

theorem e26 (V : Valuation τ sig (Elt F)) : after ops V (Proc.devRef .tc main_v20) = (addi : (⟨S1300000, .i32⟩ : BufTy).Contents (Elt F) → (⟨S1300000, .i32⟩ : BufTy).Contents (Elt F) → (⟨S1300000, .i32⟩ : BufTy).Contents (Elt F)) (after ops V (Proc.devRef .tc main_v3)) (after ops V (Proc.devRef .tc main_v19)) :=
  binary_at outs V 26 main_v3 main_v19 main_v20 _ _ _ _ rfl (by decide) (by decide) (by decide)

theorem e27 (V : Valuation τ sig (Elt F)) : after ops V (Proc.devRef .tc main_v21) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v18)) (after ops V (Proc.devRef .tc main_v20)) (after ops V (Proc.devRef .tc main_v3)) :=
  ternary_at outs V 27 main_v18 main_v20 main_v3 main_v21 _ _ _ _ _ rfl (by decide) (by decide) (by decide) (by decide)

theorem e28 (V : Valuation τ sig (Elt F)) : after ops V (Proc.devRef .tc main_v22) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v21)) :=
  unary_at outs V 28 main_v21 main_v22 _ _ _ rfl (by decide) (by decide)

theorem e29 (V : Valuation τ sig (Elt F)) : after ops V (Proc.devRef .tc main_v23) = ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)) (after ops V (Proc.devRef .tc main_v16)) (after ops V (Proc.devRef .tc main_v22)) :=
  binary_at outs V 29 main_v16 main_v22 main_v23 _ _ _ _ rfl (by decide) (by decide) (by decide)

theorem e30 (V : Valuation τ sig (Elt F)) : after ops V (Proc.devRef .tc main_c_4) = (constantI S_ 32 0#32) :=
  nullary_at outs V 30 main_c_4 _ _ rfl (by decide)

theorem e31 (V : Valuation τ sig (Elt F)) : after ops V (Proc.devRef .tc main_v24) = (broadcastInDim S1300000 ![] bcast_S_S1300000 : (⟨S_, .i32⟩ : BufTy).Contents (Elt F) → (⟨S1300000, .i32⟩ : BufTy).Contents (Elt F)) (after ops V (Proc.devRef .tc main_c_4)) :=
  unary_at outs V 31 main_c_4 main_v24 _ _ _ rfl (by decide) (by decide)

theorem e32 (V : Valuation τ sig (Elt F)) : after ops V (Proc.devRef .tc main_v25) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v6)) (after ops V (Proc.devRef .tc main_v24)) :=
  binary_at outs V 32 main_v6 main_v24 main_v25 _ _ _ _ rfl (by decide) (by decide) (by decide)

theorem e33 (V : Valuation τ sig (Elt F)) : after ops V (Proc.devRef .tc main_c_5) = (constantI S_ 32 100000#32) :=
  nullary_at outs V 33 main_c_5 _ _ rfl (by decide)

theorem e34 (V : Valuation τ sig (Elt F)) : after ops V (Proc.devRef .tc main_v26) = (broadcastInDim S1300000 ![] bcast_S_S1300000 : (⟨S_, .i32⟩ : BufTy).Contents (Elt F) → (⟨S1300000, .i32⟩ : BufTy).Contents (Elt F)) (after ops V (Proc.devRef .tc main_c_5)) :=
  unary_at outs V 34 main_c_5 main_v26 _ _ _ rfl (by decide) (by decide)

theorem e35 (V : Valuation τ sig (Elt F)) : after ops V (Proc.devRef .tc main_v27) = (addi : (⟨S1300000, .i32⟩ : BufTy).Contents (Elt F) → (⟨S1300000, .i32⟩ : BufTy).Contents (Elt F) → (⟨S1300000, .i32⟩ : BufTy).Contents (Elt F)) (after ops V (Proc.devRef .tc main_v6)) (after ops V (Proc.devRef .tc main_v26)) :=
  binary_at outs V 35 main_v6 main_v26 main_v27 _ _ _ _ rfl (by decide) (by decide) (by decide)

theorem e36 (V : Valuation τ sig (Elt F)) : after ops V (Proc.devRef .tc main_v28) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v25)) (after ops V (Proc.devRef .tc main_v27)) (after ops V (Proc.devRef .tc main_v6)) :=
  ternary_at outs V 36 main_v25 main_v27 main_v6 main_v28 _ _ _ _ _ rfl (by decide) (by decide) (by decide) (by decide)

theorem e37 (V : Valuation τ sig (Elt F)) : after ops V (Proc.devRef .tc main_v29) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v28)) :=
  unary_at outs V 37 main_v28 main_v29 _ _ _ rfl (by decide) (by decide)

theorem e38 (V : Valuation τ sig (Elt F)) : after ops V (Proc.devRef .tc main_v30) = ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)) (after ops V (Proc.devRef .tc main_v16)) (after ops V (Proc.devRef .tc main_v29)) :=
  binary_at outs V 38 main_v16 main_v29 main_v30 _ _ _ _ rfl (by decide) (by decide) (by decide)

theorem e39 (V : Valuation τ sig (Elt F)) : after ops V (Proc.devRef .tc main_v31) = (mulf : (⟨S1300000, .f32⟩ : BufTy).Contents (Elt F) → (⟨S1300000, .f32⟩ : BufTy).Contents (Elt F) → (⟨S1300000, .f32⟩ : BufTy).Contents (Elt F)) (after ops V (Proc.devRef .tc main_v23)) (after ops V (Proc.devRef .tc main_v30)) :=
  binary_at outs V 39 main_v23 main_v30 main_v31 _ _ _ _ rfl (by decide) (by decide) (by decide)

theorem e40 (V : Valuation τ sig (Elt F)) : after ops V (Proc.devRef .tc main_v32) = (broadcastInDim S1300000x1 ![0] bcast_S1300000_S1300000x1_0 : (⟨S1300000, .f32⟩ : BufTy).Contents (Elt F) → (⟨S1300000x1, .f32⟩ : BufTy).Contents (Elt F)) (after ops V (Proc.devRef .tc main_v31)) :=
  unary_at outs V 40 main_v31 main_v32 _ _ _ rfl (by decide) (by decide)

theorem e41 (V : Valuation τ sig (Elt F)) : after ops V (Proc.devRef .tc main_c_6) = (constantI S_ 32 0#32) :=
  nullary_at outs V 41 main_c_6 _ _ rfl (by decide)

theorem e42 (V : Valuation τ sig (Elt F)) : after ops V (Proc.devRef .tc main_v33) = (broadcastInDim S1300000 ![] bcast_S_S1300000 : (⟨S_, .i32⟩ : BufTy).Contents (Elt F) → (⟨S1300000, .i32⟩ : BufTy).Contents (Elt F)) (after ops V (Proc.devRef .tc main_c_6)) :=
  unary_at outs V 42 main_c_6 main_v33 _ _ _ rfl (by decide) (by decide)

theorem e43 (V : Valuation τ sig (Elt F)) : after ops V (Proc.devRef .tc main_v34) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v3)) (after ops V (Proc.devRef .tc main_v33)) :=
  binary_at outs V 43 main_v3 main_v33 main_v34 _ _ _ _ rfl (by decide) (by decide) (by decide)

theorem e44 (V : Valuation τ sig (Elt F)) : after ops V (Proc.devRef .tc main_c_7) = (constantI S_ 32 100000#32) :=
  nullary_at outs V 44 main_c_7 _ _ rfl (by decide)

theorem e45 (V : Valuation τ sig (Elt F)) : after ops V (Proc.devRef .tc main_v35) = (broadcastInDim S1300000 ![] bcast_S_S1300000 : (⟨S_, .i32⟩ : BufTy).Contents (Elt F) → (⟨S1300000, .i32⟩ : BufTy).Contents (Elt F)) (after ops V (Proc.devRef .tc main_c_7)) :=
  unary_at outs V 45 main_c_7 main_v35 _ _ _ rfl (by decide) (by decide)

theorem e46 (V : Valuation τ sig (Elt F)) : after ops V (Proc.devRef .tc main_v36) = (addi : (⟨S1300000, .i32⟩ : BufTy).Contents (Elt F) → (⟨S1300000, .i32⟩ : BufTy).Contents (Elt F) → (⟨S1300000, .i32⟩ : BufTy).Contents (Elt F)) (after ops V (Proc.devRef .tc main_v3)) (after ops V (Proc.devRef .tc main_v35)) :=
  binary_at outs V 46 main_v3 main_v35 main_v36 _ _ _ _ rfl (by decide) (by decide) (by decide)

theorem e47 (V : Valuation τ sig (Elt F)) : after ops V (Proc.devRef .tc main_v37) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v34)) (after ops V (Proc.devRef .tc main_v36)) (after ops V (Proc.devRef .tc main_v3)) :=
  ternary_at outs V 47 main_v34 main_v36 main_v3 main_v37 _ _ _ _ _ rfl (by decide) (by decide) (by decide) (by decide)

theorem e48 (V : Valuation τ sig (Elt F)) : after ops V (Proc.devRef .tc main_v38) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v37)) :=
  unary_at outs V 48 main_v37 main_v38 _ _ _ rfl (by decide) (by decide)

theorem e49 (V : Valuation τ sig (Elt F)) : after ops V (Proc.devRef .tc main_v39) = ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)) (after ops V (Proc.devRef .tc main_v7)) (after ops V (Proc.devRef .tc main_v38)) :=
  binary_at outs V 49 main_v7 main_v38 main_v39 _ _ _ _ rfl (by decide) (by decide) (by decide)

theorem e50 (V : Valuation τ sig (Elt F)) : after ops V (Proc.devRef .tc main_v40) = (broadcastInDim S1300000x64 ![0, 1] bcast_S1300000x1_S1300000x64_0_1 : (⟨S1300000x1, .f32⟩ : BufTy).Contents (Elt F) → (⟨S1300000x64, .f32⟩ : BufTy).Contents (Elt F)) (after ops V (Proc.devRef .tc main_v32)) :=
  unary_at outs V 50 main_v32 main_v40 _ _ _ rfl (by decide) (by decide)

theorem e51 (V : Valuation τ sig (Elt F)) : after ops V (Proc.devRef .tc main_v41) = (mulf : (⟨S1300000x64, .f32⟩ : BufTy).Contents (Elt F) → (⟨S1300000x64, .f32⟩ : BufTy).Contents (Elt F) → (⟨S1300000x64, .f32⟩ : BufTy).Contents (Elt F)) (after ops V (Proc.devRef .tc main_v40)) (after ops V (Proc.devRef .tc main_v39)) :=
  binary_at outs V 51 main_v40 main_v39 main_v41 _ _ _ _ rfl (by decide) (by decide) (by decide)

theorem e52 (V : Valuation τ sig (Elt F)) : after ops V (Proc.devRef .tc main_cst_8) = (constant S_ .f32 0x00000000#32) :=
  nullary_at outs V 52 main_cst_8 _ _ rfl (by decide)

theorem e53 (V : Valuation τ sig (Elt F)) : after ops V (Proc.devRef .tc main_v42) = (broadcastInDim S100000x64 ![] bcast_S_S100000x64 : (⟨S_, .f32⟩ : BufTy).Contents (Elt F) → (⟨S100000x64, .f32⟩ : BufTy).Contents (Elt F)) (after ops V (Proc.devRef .tc main_cst_8)) :=
  unary_at outs V 53 main_cst_8 main_v42 _ _ _ rfl (by decide) (by decide)

theorem e54 (V : Valuation τ sig (Elt F)) : after ops V (Proc.devRef .tc main_v43) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v6)) :=
  unary_at outs V 54 main_v6 main_v43 _ _ _ rfl (by decide) (by decide)

theorem e55 (V : Valuation τ sig (Elt F)) : after ops V (Proc.devRef .tc main_v44) = ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)) (after ops V (Proc.devRef .tc main_v42)) (after ops V (Proc.devRef .tc main_v43)) (after ops V (Proc.devRef .tc main_v41)) :=
  ternary_at outs V 55 main_v42 main_v43 main_v41 main_v44 _ _ _ _ _ rfl (by decide) (by decide) (by decide) (by decide)

theorem e56 (V : Valuation τ sig (Elt F)) : after ops V (Proc.devRef .tc main_v45) = (broadcastInDim S1x64 ![1] bcast_S64_S1x64_1 : (⟨S64, .f32⟩ : BufTy).Contents (Elt F) → (⟨S1x64, .f32⟩ : BufTy).Contents (Elt F)) (after ops V (Proc.devRef .tc main_arg4)) :=
  unary_at outs V 56 main_arg4 main_v45 _ _ _ rfl (by decide) (by decide)

theorem e57 (V : Valuation τ sig (Elt F)) : after ops V (Proc.devRef .tc main_v46) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v45)) :=
  unary_at outs V 57 main_v45 main_v46 _ _ _ rfl (by decide) (by decide)

theorem e58 (V : Valuation τ sig (Elt F)) : after ops V (Proc.devRef .tc main_v47) = (addf : (⟨S100000x64, .f32⟩ : BufTy).Contents (Elt F) → (⟨S100000x64, .f32⟩ : BufTy).Contents (Elt F) → (⟨S100000x64, .f32⟩ : BufTy).Contents (Elt F)) (after ops V (Proc.devRef .tc main_v44)) (after ops V (Proc.devRef .tc main_v46)) :=
  binary_at outs V 58 main_v44 main_v46 main_v47 _ _ _ _ rfl (by decide) (by decide) (by decide)

theorem e59 (V : Valuation τ sig (Elt F)) : after ops V (Proc.devRef .tc main_call1_cst) = ((constant S_ .f32 0x00000000#32) : (⟨S_, .f32⟩ : BufTy).Contents (Elt F)) :=
  eq_of_heq (tnullary_at outs V 59 (TRef.of (T := ⟨S_, .f32⟩) main_call1_cst) (constant S_ .f32 0x00000000#32) rfl (by decide))

theorem e60 (V : Valuation τ sig (Elt F)) : after ops V (Proc.devRef .tc main_call1_v0) = ((broadcastInDim S100000x64 ![] bcast_S_S100000x64) : (⟨S_, .f32⟩ : BufTy).Contents (Elt F) → (⟨S100000x64, .f32⟩ : BufTy).Contents (Elt F)) (after ops V (Proc.devRef .tc main_call1_cst)) :=
  eq_of_heq (tunary_at outs V 60 (TRef.of (T := ⟨S_, .f32⟩) main_call1_cst) (TRef.of (T := ⟨S100000x64, .f32⟩) main_call1_v0) (broadcastInDim S100000x64 ![] bcast_S_S100000x64) rfl (by decide) (by decide) _ HEq.rfl)

theorem e61 (V : Valuation τ sig (Elt F)) : after ops V (Proc.devRef .tc main_v48) = (maximumf : (⟨S100000x64, .f32⟩ : BufTy).Contents (Elt F) → (⟨S100000x64, .f32⟩ : BufTy).Contents (Elt F) → (⟨S100000x64, .f32⟩ : BufTy).Contents (Elt F)) (after ops V (Proc.devRef .tc main_v47)) (after ops V (Proc.devRef .tc main_call1_v0)) :=
  eq_of_heq (tbinary_at outs V 61 (TRef.of (T := ⟨S100000x64, .f32⟩) main_v47) (TRef.of (T := ⟨S100000x64, .f32⟩) main_call1_v0) (TRef.of (T := ⟨S100000x64, .f32⟩) main_v48) maximumf rfl (by decide) (by decide) (by decide) _ _ HEq.rfl HEq.rfl)

theorem e62 (V : Valuation τ sig (Elt F)) : after ops V (Proc.devRef .tc main_v49) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v48)) (after ops V (Proc.devRef .tc main_arg5)) :=
  binary_at outs V 62 main_v48 main_arg5 main_v49 _ _ _ _ rfl (by decide) (by decide) (by decide)

theorem e63 (V : Valuation τ sig (Elt F)) : after ops V (Proc.devRef .tc main_cst_9) = (constant S_ .f32 0x3F800000#32) :=
  nullary_at outs V 63 main_cst_9 _ _ rfl (by decide)

theorem e64 (V : Valuation τ sig (Elt F)) : after ops V (Proc.devRef .tc main_v50) = (broadcastInDim S1300000 ![] bcast_S_S1300000 : (⟨S_, .f32⟩ : BufTy).Contents (Elt F) → (⟨S1300000, .f32⟩ : BufTy).Contents (Elt F)) (after ops V (Proc.devRef .tc main_cst_9)) :=
  unary_at outs V 64 main_cst_9 main_v50 _ _ _ rfl (by decide) (by decide)

theorem e65 (V : Valuation τ sig (Elt F)) : after ops V (Proc.devRef .tc main_cst_10) = (constant S_ .f32 0x00000000#32) :=
  nullary_at outs V 65 main_cst_10 _ _ rfl (by decide)

theorem e66 (V : Valuation τ sig (Elt F)) : after ops V (Proc.devRef .tc main_v51) = (broadcastInDim S100000 ![] bcast_S_S100000 : (⟨S_, .f32⟩ : BufTy).Contents (Elt F) → (⟨S100000, .f32⟩ : BufTy).Contents (Elt F)) (after ops V (Proc.devRef .tc main_cst_10)) :=
  unary_at outs V 66 main_cst_10 main_v51 _ _ _ rfl (by decide) (by decide)

theorem e67 (V : Valuation τ sig (Elt F)) : after ops V (Proc.devRef .tc main_v52) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v6)) :=
  unary_at outs V 67 main_v6 main_v52 _ _ _ rfl (by decide) (by decide)

theorem e68 (V : Valuation τ sig (Elt F)) : after ops V (Proc.devRef .tc main_v53) = ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)) (after ops V (Proc.devRef .tc main_v51)) (after ops V (Proc.devRef .tc main_v52)) (after ops V (Proc.devRef .tc main_v50)) :=
  ternary_at outs V 68 main_v51 main_v52 main_v50 main_v53 _ _ _ _ _ rfl (by decide) (by decide) (by decide) (by decide)

theorem e69 (V : Valuation τ sig (Elt F)) : after ops V (Proc.devRef .tc main_cst_11) = (constant S_ .f32 0x00000000#32) :=
  nullary_at outs V 69 main_cst_11 _ _ rfl (by decide)

theorem e70 (V : Valuation τ sig (Elt F)) : after ops V (Proc.devRef .tc main_v54) = (broadcastInDim S100000 ![] bcast_S_S100000 : (⟨S_, .f32⟩ : BufTy).Contents (Elt F) → (⟨S100000, .f32⟩ : BufTy).Contents (Elt F)) (after ops V (Proc.devRef .tc main_cst_11)) :=
  unary_at outs V 70 main_cst_11 main_v54 _ _ _ rfl (by decide) (by decide)

theorem e71 (V : Valuation τ sig (Elt F)) : after ops V (Proc.devRef .tc main_v55) = (cmpf .ogt : (⟨S100000, .f32⟩ : BufTy).Contents (Elt F) → (⟨S100000, .f32⟩ : BufTy).Contents (Elt F) → (⟨S100000, .i1⟩ : BufTy).Contents (Elt F)) (after ops V (Proc.devRef .tc main_v53)) (after ops V (Proc.devRef .tc main_v54)) :=
  binary_at outs V 71 main_v53 main_v54 main_v55 _ _ _ _ rfl (by decide) (by decide) (by decide)

theorem e72 (V : Valuation τ sig (Elt F)) : after ops V (Proc.devRef .tc main_v56) = (Host.rsqrt : (⟨S100000, .f32⟩ : BufTy).Contents (Elt F) → (⟨S100000, .f32⟩ : BufTy).Contents (Elt F)) (after ops V (Proc.devRef .tc main_v53)) :=
  unary_at outs V 72 main_v53 main_v56 _ _ _ rfl (by decide) (by decide)

theorem e73 (V : Valuation τ sig (Elt F)) : after ops V (Proc.devRef .tc main_cst_12) = (constant S_ .f32 0x00000000#32) :=
  nullary_at outs V 73 main_cst_12 _ _ rfl (by decide)

theorem e74 (V : Valuation τ sig (Elt F)) : after ops V (Proc.devRef .tc main_v57) = (broadcastInDim S100000 ![] bcast_S_S100000 : (⟨S_, .f32⟩ : BufTy).Contents (Elt F) → (⟨S100000, .f32⟩ : BufTy).Contents (Elt F)) (after ops V (Proc.devRef .tc main_cst_12)) :=
  unary_at outs V 74 main_cst_12 main_v57 _ _ _ rfl (by decide) (by decide)

theorem e75 (V : Valuation τ sig (Elt F)) : after ops V (Proc.devRef .tc main_v58) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v55)) (after ops V (Proc.devRef .tc main_v56)) (after ops V (Proc.devRef .tc main_v57)) :=
  eq_of_heq (tternary_at outs V 75 (TRef.of (T := ⟨S100000, .i1⟩) main_v55) (TRef.of (T := ⟨S100000, .f32⟩) main_v56) (TRef.of (T := ⟨S100000, .f32⟩) main_v57) (TRef.of (T := ⟨S100000, .f32⟩) main_v58) select rfl (by decide) (by decide) (by decide) (by decide) _ _ _ HEq.rfl HEq.rfl HEq.rfl)

theorem e76 (V : Valuation τ sig (Elt F)) : after ops V (Proc.devRef .tc main_c_13) = (constantI S_ 32 0#32) :=
  nullary_at outs V 76 main_c_13 _ _ rfl (by decide)

theorem e77 (V : Valuation τ sig (Elt F)) : after ops V (Proc.devRef .tc main_v59) = (broadcastInDim S1300000 ![] bcast_S_S1300000 : (⟨S_, .i32⟩ : BufTy).Contents (Elt F) → (⟨S1300000, .i32⟩ : BufTy).Contents (Elt F)) (after ops V (Proc.devRef .tc main_c_13)) :=
  unary_at outs V 77 main_c_13 main_v59 _ _ _ rfl (by decide) (by decide)

theorem e78 (V : Valuation τ sig (Elt F)) : after ops V (Proc.devRef .tc main_v60) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v3)) (after ops V (Proc.devRef .tc main_v59)) :=
  binary_at outs V 78 main_v3 main_v59 main_v60 _ _ _ _ rfl (by decide) (by decide) (by decide)

theorem e79 (V : Valuation τ sig (Elt F)) : after ops V (Proc.devRef .tc main_c_14) = (constantI S_ 32 100000#32) :=
  nullary_at outs V 79 main_c_14 _ _ rfl (by decide)

theorem e80 (V : Valuation τ sig (Elt F)) : after ops V (Proc.devRef .tc main_v61) = (broadcastInDim S1300000 ![] bcast_S_S1300000 : (⟨S_, .i32⟩ : BufTy).Contents (Elt F) → (⟨S1300000, .i32⟩ : BufTy).Contents (Elt F)) (after ops V (Proc.devRef .tc main_c_14)) :=
  unary_at outs V 80 main_c_14 main_v61 _ _ _ rfl (by decide) (by decide)

theorem e81 (V : Valuation τ sig (Elt F)) : after ops V (Proc.devRef .tc main_v62) = (addi : (⟨S1300000, .i32⟩ : BufTy).Contents (Elt F) → (⟨S1300000, .i32⟩ : BufTy).Contents (Elt F) → (⟨S1300000, .i32⟩ : BufTy).Contents (Elt F)) (after ops V (Proc.devRef .tc main_v3)) (after ops V (Proc.devRef .tc main_v61)) :=
  binary_at outs V 81 main_v3 main_v61 main_v62 _ _ _ _ rfl (by decide) (by decide) (by decide)

theorem e82 (V : Valuation τ sig (Elt F)) : after ops V (Proc.devRef .tc main_v63) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v60)) (after ops V (Proc.devRef .tc main_v62)) (after ops V (Proc.devRef .tc main_v3)) :=
  ternary_at outs V 82 main_v60 main_v62 main_v3 main_v63 _ _ _ _ _ rfl (by decide) (by decide) (by decide) (by decide)

theorem e83 (V : Valuation τ sig (Elt F)) : after ops V (Proc.devRef .tc main_v64) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v63)) :=
  unary_at outs V 83 main_v63 main_v64 _ _ _ rfl (by decide) (by decide)

theorem e84 (V : Valuation τ sig (Elt F)) : after ops V (Proc.devRef .tc main_v65) = ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)) (after ops V (Proc.devRef .tc main_v58)) (after ops V (Proc.devRef .tc main_v64)) :=
  binary_at outs V 84 main_v58 main_v64 main_v65 _ _ _ _ rfl (by decide) (by decide) (by decide)

theorem e85 (V : Valuation τ sig (Elt F)) : after ops V (Proc.devRef .tc main_c_15) = (constantI S_ 32 0#32) :=
  nullary_at outs V 85 main_c_15 _ _ rfl (by decide)

theorem e86 (V : Valuation τ sig (Elt F)) : after ops V (Proc.devRef .tc main_v66) = (broadcastInDim S1300000 ![] bcast_S_S1300000 : (⟨S_, .i32⟩ : BufTy).Contents (Elt F) → (⟨S1300000, .i32⟩ : BufTy).Contents (Elt F)) (after ops V (Proc.devRef .tc main_c_15)) :=
  unary_at outs V 86 main_c_15 main_v66 _ _ _ rfl (by decide) (by decide)

theorem e87 (V : Valuation τ sig (Elt F)) : after ops V (Proc.devRef .tc main_v67) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v6)) (after ops V (Proc.devRef .tc main_v66)) :=
  binary_at outs V 87 main_v6 main_v66 main_v67 _ _ _ _ rfl (by decide) (by decide) (by decide)

theorem e88 (V : Valuation τ sig (Elt F)) : after ops V (Proc.devRef .tc main_c_16) = (constantI S_ 32 100000#32) :=
  nullary_at outs V 88 main_c_16 _ _ rfl (by decide)

theorem e89 (V : Valuation τ sig (Elt F)) : after ops V (Proc.devRef .tc main_v68) = (broadcastInDim S1300000 ![] bcast_S_S1300000 : (⟨S_, .i32⟩ : BufTy).Contents (Elt F) → (⟨S1300000, .i32⟩ : BufTy).Contents (Elt F)) (after ops V (Proc.devRef .tc main_c_16)) :=
  unary_at outs V 89 main_c_16 main_v68 _ _ _ rfl (by decide) (by decide)

theorem e90 (V : Valuation τ sig (Elt F)) : after ops V (Proc.devRef .tc main_v69) = (addi : (⟨S1300000, .i32⟩ : BufTy).Contents (Elt F) → (⟨S1300000, .i32⟩ : BufTy).Contents (Elt F) → (⟨S1300000, .i32⟩ : BufTy).Contents (Elt F)) (after ops V (Proc.devRef .tc main_v6)) (after ops V (Proc.devRef .tc main_v68)) :=
  binary_at outs V 90 main_v6 main_v68 main_v69 _ _ _ _ rfl (by decide) (by decide) (by decide)

theorem e91 (V : Valuation τ sig (Elt F)) : after ops V (Proc.devRef .tc main_v70) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v67)) (after ops V (Proc.devRef .tc main_v69)) (after ops V (Proc.devRef .tc main_v6)) :=
  ternary_at outs V 91 main_v67 main_v69 main_v6 main_v70 _ _ _ _ _ rfl (by decide) (by decide) (by decide) (by decide)

theorem e92 (V : Valuation τ sig (Elt F)) : after ops V (Proc.devRef .tc main_v71) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v70)) :=
  unary_at outs V 92 main_v70 main_v71 _ _ _ rfl (by decide) (by decide)

theorem e93 (V : Valuation τ sig (Elt F)) : after ops V (Proc.devRef .tc main_v72) = ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)) (after ops V (Proc.devRef .tc main_v58)) (after ops V (Proc.devRef .tc main_v71)) :=
  binary_at outs V 93 main_v58 main_v71 main_v72 _ _ _ _ rfl (by decide) (by decide) (by decide)

theorem e94 (V : Valuation τ sig (Elt F)) : after ops V (Proc.devRef .tc main_v73) = (mulf : (⟨S1300000, .f32⟩ : BufTy).Contents (Elt F) → (⟨S1300000, .f32⟩ : BufTy).Contents (Elt F) → (⟨S1300000, .f32⟩ : BufTy).Contents (Elt F)) (after ops V (Proc.devRef .tc main_v65)) (after ops V (Proc.devRef .tc main_v72)) :=
  binary_at outs V 94 main_v65 main_v72 main_v73 _ _ _ _ rfl (by decide) (by decide) (by decide)

theorem e95 (V : Valuation τ sig (Elt F)) : after ops V (Proc.devRef .tc main_v74) = (broadcastInDim S1300000x1 ![0] bcast_S1300000_S1300000x1_0 : (⟨S1300000, .f32⟩ : BufTy).Contents (Elt F) → (⟨S1300000x1, .f32⟩ : BufTy).Contents (Elt F)) (after ops V (Proc.devRef .tc main_v73)) :=
  unary_at outs V 95 main_v73 main_v74 _ _ _ rfl (by decide) (by decide)

theorem e96 (V : Valuation τ sig (Elt F)) : after ops V (Proc.devRef .tc main_c_17) = (constantI S_ 32 0#32) :=
  nullary_at outs V 96 main_c_17 _ _ rfl (by decide)

theorem e97 (V : Valuation τ sig (Elt F)) : after ops V (Proc.devRef .tc main_v75) = (broadcastInDim S1300000 ![] bcast_S_S1300000 : (⟨S_, .i32⟩ : BufTy).Contents (Elt F) → (⟨S1300000, .i32⟩ : BufTy).Contents (Elt F)) (after ops V (Proc.devRef .tc main_c_17)) :=
  unary_at outs V 97 main_c_17 main_v75 _ _ _ rfl (by decide) (by decide)

theorem e98 (V : Valuation τ sig (Elt F)) : after ops V (Proc.devRef .tc main_v76) = (cmpi .slt : (⟨S1300000, .i32⟩ : BufTy).Contents (Elt F) → (⟨S1300000, .i32⟩ : BufTy).Contents (Elt F) → (⟨S1300000, .i1⟩ : BufTy).Contents (Elt F)) (after ops V (Proc.devRef .tc main_v3)) (after ops V (Proc.devRef .tc main_v75)) :=
  binary_at outs V 98 main_v3 main_v75 main_v76 _ _ _ _ rfl (by decide) (by decide) (by decide)

theorem e99 (V : Valuation τ sig (Elt F)) : after ops V (Proc.devRef .tc main_c_18) = (constantI S_ 32 100000#32) :=
  nullary_at outs V 99 main_c_18 _ _ rfl (by decide)

theorem e100 (V : Valuation τ sig (Elt F)) : after ops V (Proc.devRef .tc main_v77) = (broadcastInDim S1300000 ![] bcast_S_S1300000 : (⟨S_, .i32⟩ : BufTy).Contents (Elt F) → (⟨S1300000, .i32⟩ : BufTy).Contents (Elt F)) (after ops V (Proc.devRef .tc main_c_18)) :=
  unary_at outs V 100 main_c_18 main_v77 _ _ _ rfl (by decide) (by decide)

theorem e101 (V : Valuation τ sig (Elt F)) : after ops V (Proc.devRef .tc main_v78) = (addi : (⟨S1300000, .i32⟩ : BufTy).Contents (Elt F) → (⟨S1300000, .i32⟩ : BufTy).Contents (Elt F) → (⟨S1300000, .i32⟩ : BufTy).Contents (Elt F)) (after ops V (Proc.devRef .tc main_v3)) (after ops V (Proc.devRef .tc main_v77)) :=
  binary_at outs V 101 main_v3 main_v77 main_v78 _ _ _ _ rfl (by decide) (by decide) (by decide)

theorem e102 (V : Valuation τ sig (Elt F)) : after ops V (Proc.devRef .tc main_v79) = (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)) (after ops V (Proc.devRef .tc main_v76)) (after ops V (Proc.devRef .tc main_v78)) (after ops V (Proc.devRef .tc main_v3)) :=
  ternary_at outs V 102 main_v76 main_v78 main_v3 main_v79 _ _ _ _ _ rfl (by decide) (by decide) (by decide) (by decide)

theorem e103 (V : Valuation τ sig (Elt F)) : after ops V (Proc.devRef .tc main_v80) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v79)) :=
  unary_at outs V 103 main_v79 main_v80 _ _ _ rfl (by decide) (by decide)

theorem e104 (V : Valuation τ sig (Elt F)) : after ops V (Proc.devRef .tc main_v81) = ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)) (after ops V (Proc.devRef .tc main_v49)) (after ops V (Proc.devRef .tc main_v80)) :=
  binary_at outs V 104 main_v49 main_v80 main_v81 _ _ _ _ rfl (by decide) (by decide) (by decide)

theorem e105 (V : Valuation τ sig (Elt F)) : after ops V (Proc.devRef .tc main_v82) = (broadcastInDim S1300000x64 ![0, 1] bcast_S1300000x1_S1300000x64_0_1 : (⟨S1300000x1, .f32⟩ : BufTy).Contents (Elt F) → (⟨S1300000x64, .f32⟩ : BufTy).Contents (Elt F)) (after ops V (Proc.devRef .tc main_v74)) :=
  unary_at outs V 105 main_v74 main_v82 _ _ _ rfl (by decide) (by decide)

theorem e106 (V : Valuation τ sig (Elt F)) : after ops V (Proc.devRef .tc main_v83) = (mulf : (⟨S1300000x64, .f32⟩ : BufTy).Contents (Elt F) → (⟨S1300000x64, .f32⟩ : BufTy).Contents (Elt F) → (⟨S1300000x64, .f32⟩ : BufTy).Contents (Elt F)) (after ops V (Proc.devRef .tc main_v82)) (after ops V (Proc.devRef .tc main_v81)) :=
  binary_at outs V 106 main_v82 main_v81 main_v83 _ _ _ _ rfl (by decide) (by decide) (by decide)

theorem e107 (V : Valuation τ sig (Elt F)) : after ops V (Proc.devRef .tc main_cst_19) = (constant S_ .f32 0x00000000#32) :=
  nullary_at outs V 107 main_cst_19 _ _ rfl (by decide)

theorem e108 (V : Valuation τ sig (Elt F)) : after ops V (Proc.devRef .tc main_v84) = (broadcastInDim S100000x64 ![] bcast_S_S100000x64 : (⟨S_, .f32⟩ : BufTy).Contents (Elt F) → (⟨S100000x64, .f32⟩ : BufTy).Contents (Elt F)) (after ops V (Proc.devRef .tc main_cst_19)) :=
  unary_at outs V 108 main_cst_19 main_v84 _ _ _ rfl (by decide) (by decide)

theorem e109 (V : Valuation τ sig (Elt F)) : after ops V (Proc.devRef .tc main_v85) = (broadcastInDim S1300000x1 ![0] bcast_S1300000_S1300000x1_0 : (⟨S1300000, .i32⟩ : BufTy).Contents (Elt F) → (⟨S1300000x1, .i32⟩ : BufTy).Contents (Elt F)) (after ops V (Proc.devRef .tc main_v6)) :=
  unary_at outs V 109 main_v6 main_v85 _ _ _ rfl (by decide) (by decide)

theorem e110 (V : Valuation τ sig (Elt F)) : after ops V (Proc.devRef .tc main_v86) = ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)) (after ops V (Proc.devRef .tc main_v84)) (after ops V (Proc.devRef .tc main_v85)) (after ops V (Proc.devRef .tc main_v83)) :=
  ternary_at outs V 110 main_v84 main_v85 main_v83 main_v86 _ _ _ _ _ rfl (by decide) (by decide) (by decide) (by decide)

theorem e111 (V : Valuation τ sig (Elt F)) : after ops V (Proc.devRef .tc main_v87) = (broadcastInDim S1x64 ![1] bcast_S64_S1x64_1 : (⟨S64, .f32⟩ : BufTy).Contents (Elt F) → (⟨S1x64, .f32⟩ : BufTy).Contents (Elt F)) (after ops V (Proc.devRef .tc main_arg6)) :=
  unary_at outs V 111 main_arg6 main_v87 _ _ _ rfl (by decide) (by decide)

theorem e112 (V : Valuation τ sig (Elt F)) : after ops V (Proc.devRef .tc main_v88) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v87)) :=
  unary_at outs V 112 main_v87 main_v88 _ _ _ rfl (by decide) (by decide)

theorem e113 (V : Valuation τ sig (Elt F)) : after ops V (Proc.devRef .tc main_v89) = (addf : (⟨S100000x64, .f32⟩ : BufTy).Contents (Elt F) → (⟨S100000x64, .f32⟩ : BufTy).Contents (Elt F) → (⟨S100000x64, .f32⟩ : BufTy).Contents (Elt F)) (after ops V (Proc.devRef .tc main_v86)) (after ops V (Proc.devRef .tc main_v88)) :=
  binary_at outs V 113 main_v86 main_v88 main_v89 _ _ _ _ rfl (by decide) (by decide) (by decide)

theorem e114 (V : Valuation τ sig (Elt F)) : after ops V (Proc.devRef .tc main_cst_20) = (constant S_ .f32 0x00000000#32) :=
  nullary_at outs V 114 main_cst_20 _ _ rfl (by decide)

theorem e115 (V : Valuation τ sig (Elt F)) : after ops V (Proc.devRef .tc main_v90) = (broadcastInDim S256x64 ![] bcast_S_S256x64 : (⟨S_, .f32⟩ : BufTy).Contents (Elt F) → (⟨S256x64, .f32⟩ : BufTy).Contents (Elt F)) (after ops V (Proc.devRef .tc main_cst_20)) :=
  unary_at outs V 115 main_cst_20 main_v90 _ _ _ rfl (by decide) (by decide)

theorem e116 (V : Valuation τ sig (Elt F)) : after ops V (Proc.devRef .tc main_v91) = (broadcastInDim S100000x1 ![0] bcast_S100000_S100000x1_0 : (⟨S100000, .i32⟩ : BufTy).Contents (Elt F) → (⟨S100000x1, .i32⟩ : BufTy).Contents (Elt F)) (after ops V (Proc.devRef .tc main_arg2)) :=
  unary_at outs V 116 main_arg2 main_v91 _ _ _ rfl (by decide) (by decide)

theorem e117 (V : Valuation τ sig (Elt F)) : after ops V (Proc.devRef .tc main_v92) = ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)) (after ops V (Proc.devRef .tc main_v90)) (after ops V (Proc.devRef .tc main_v91)) (after ops V (Proc.devRef .tc main_v89)) :=
  ternary_at outs V 117 main_v90 main_v91 main_v89 main_v92 _ _ _ _ _ rfl (by decide) (by decide) (by decide) (by decide)

theorem e118 (V : Valuation τ sig (Elt F)) : after ops V (Proc.devRef .tc main_cst_21) = (constant S_ .f32 0x3F800000#32) :=
  nullary_at outs V 118 main_cst_21 _ _ rfl (by decide)

theorem e119 (V : Valuation τ sig (Elt F)) : after ops V (Proc.devRef .tc main_v93) = (broadcastInDim S100000 ![] bcast_S_S100000 : (⟨S_, .f32⟩ : BufTy).Contents (Elt F) → (⟨S100000, .f32⟩ : BufTy).Contents (Elt F)) (after ops V (Proc.devRef .tc main_cst_21)) :=
  unary_at outs V 119 main_cst_21 main_v93 _ _ _ rfl (by decide) (by decide)

theorem e120 (V : Valuation τ sig (Elt F)) : after ops V (Proc.devRef .tc main_cst_22) = (constant S_ .f32 0x00000000#32) :=
  nullary_at outs V 120 main_cst_22 _ _ rfl (by decide)

theorem e121 (V : Valuation τ sig (Elt F)) : after ops V (Proc.devRef .tc main_v94) = (broadcastInDim S256 ![] bcast_S_S256 : (⟨S_, .f32⟩ : BufTy).Contents (Elt F) → (⟨S256, .f32⟩ : BufTy).Contents (Elt F)) (after ops V (Proc.devRef .tc main_cst_22)) :=
  unary_at outs V 121 main_cst_22 main_v94 _ _ _ rfl (by decide) (by decide)

theorem e122 (V : Valuation τ sig (Elt F)) : after ops V (Proc.devRef .tc main_v95) = (broadcastInDim S100000x1 ![0] bcast_S100000_S100000x1_0 : (⟨S100000, .i32⟩ : BufTy).Contents (Elt F) → (⟨S100000x1, .i32⟩ : BufTy).Contents (Elt F)) (after ops V (Proc.devRef .tc main_arg2)) :=
  unary_at outs V 122 main_arg2 main_v95 _ _ _ rfl (by decide) (by decide)

theorem e123 (V : Valuation τ sig (Elt F)) : after ops V (Proc.devRef .tc main_v96) = ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)) (after ops V (Proc.devRef .tc main_v94)) (after ops V (Proc.devRef .tc main_v95)) (after ops V (Proc.devRef .tc main_v93)) :=
  ternary_at outs V 123 main_v94 main_v95 main_v93 main_v96 _ _ _ _ _ rfl (by decide) (by decide) (by decide) (by decide)

theorem e124 (V : Valuation τ sig (Elt F)) : after ops V (Proc.devRef .tc main_cst_23) = (constant S_ .f32 0x3F800000#32) :=
  nullary_at outs V 124 main_cst_23 _ _ rfl (by decide)

theorem e125 (V : Valuation τ sig (Elt F)) : after ops V (Proc.devRef .tc main_v97) = (broadcastInDim S256 ![] bcast_S_S256 : (⟨S_, .f32⟩ : BufTy).Contents (Elt F) → (⟨S256, .f32⟩ : BufTy).Contents (Elt F)) (after ops V (Proc.devRef .tc main_cst_23)) :=
  unary_at outs V 125 main_cst_23 main_v97 _ _ _ rfl (by decide) (by decide)

theorem e126 (V : Valuation τ sig (Elt F)) : after ops V (Proc.devRef .tc main_v98) = (maximumf : (⟨S256, .f32⟩ : BufTy).Contents (Elt F) → (⟨S256, .f32⟩ : BufTy).Contents (Elt F) → (⟨S256, .f32⟩ : BufTy).Contents (Elt F)) (after ops V (Proc.devRef .tc main_v96)) (after ops V (Proc.devRef .tc main_v97)) :=
  binary_at outs V 126 main_v96 main_v97 main_v98 _ _ _ _ rfl (by decide) (by decide) (by decide)

theorem e127 (V : Valuation τ sig (Elt F)) : after ops V (Proc.devRef .tc main_v99) = (broadcastInDim S256x1 ![0] bcast_S256_S256x1_0 : (⟨S256, .f32⟩ : BufTy).Contents (Elt F) → (⟨S256x1, .f32⟩ : BufTy).Contents (Elt F)) (after ops V (Proc.devRef .tc main_v98)) :=
  unary_at outs V 127 main_v98 main_v99 _ _ _ rfl (by decide) (by decide)

theorem e128 (V : Valuation τ sig (Elt F)) : after ops V (Proc.devRef .tc main_v100) = (broadcastInDim S256x64 ![0, 1] bcast_S256x1_S256x64_0_1 : (⟨S256x1, .f32⟩ : BufTy).Contents (Elt F) → (⟨S256x64, .f32⟩ : BufTy).Contents (Elt F)) (after ops V (Proc.devRef .tc main_v99)) :=
  unary_at outs V 128 main_v99 main_v100 _ _ _ rfl (by decide) (by decide)

theorem e129 (V : Valuation τ sig (Elt F)) : after ops V (Proc.devRef .tc main_v101) = (Host.divf : (⟨S256x64, .f32⟩ : BufTy).Contents (Elt F) → (⟨S256x64, .f32⟩ : BufTy).Contents (Elt F) → (⟨S256x64, .f32⟩ : BufTy).Contents (Elt F)) (after ops V (Proc.devRef .tc main_v92)) (after ops V (Proc.devRef .tc main_v100)) :=
  binary_at outs V 129 main_v92 main_v100 main_v101 _ _ _ _ rfl (by decide) (by decide) (by decide)

theorem e130 (V : Valuation τ sig (Elt F)) : after ops V (Proc.devRef .tc main_v102) = ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)) (after ops V (Proc.devRef .tc main_v101)) (after ops V (Proc.devRef .tc main_arg7)) :=
  binary_at outs V 130 main_v101 main_arg7 main_v102 _ _ _ _ rfl (by decide) (by decide) (by decide)

theorem e131 (V : Valuation τ sig (Elt F)) : after ops V (Proc.devRef .tc main_v103) = (broadcastInDim S1x1 ![1] bcast_S1_S1x1_1 : (⟨S1, .f32⟩ : BufTy).Contents (Elt F) → (⟨S1x1, .f32⟩ : BufTy).Contents (Elt F)) (after ops V (Proc.devRef .tc main_arg8)) :=
  unary_at outs V 131 main_arg8 main_v103 _ _ _ rfl (by decide) (by decide)

theorem e132 (V : Valuation τ sig (Elt F)) : after ops V (Proc.devRef .tc main_v104) = (broadcastInDim S256x1 ![0, 1] bcast_S1x1_S256x1_0_1 : (⟨S1x1, .f32⟩ : BufTy).Contents (Elt F) → (⟨S256x1, .f32⟩ : BufTy).Contents (Elt F)) (after ops V (Proc.devRef .tc main_v103)) :=
  unary_at outs V 132 main_v103 main_v104 _ _ _ rfl (by decide) (by decide)

theorem e133 (V : Valuation τ sig (Elt F)) : after ops V (Proc.devRef .tc main_v105) = (addf : (⟨S256x1, .f32⟩ : BufTy).Contents (Elt F) → (⟨S256x1, .f32⟩ : BufTy).Contents (Elt F) → (⟨S256x1, .f32⟩ : BufTy).Contents (Elt F)) (after ops V (Proc.devRef .tc main_v102)) (after ops V (Proc.devRef .tc main_v104)) :=
  binary_at outs V 133 main_v102 main_v104 main_v105 _ _ _ _ rfl (by decide) (by decide) (by decide)

/-! ## The argument buffers are never written -/

theorem a0 (V : Valuation τ sig (Elt F)) : after ops V (Proc.devRef .tc main_arg0) = V (Proc.devRef .tc main_arg0) :=
  after_take outs 0 main_arg0 (by decide) V

theorem a1 (V : Valuation τ sig (Elt F)) : after ops V (Proc.devRef .tc main_arg1) = V (Proc.devRef .tc main_arg1) :=
  after_take outs 0 main_arg1 (by decide) V

theorem a2 (V : Valuation τ sig (Elt F)) : after ops V (Proc.devRef .tc main_arg2) = V (Proc.devRef .tc main_arg2) :=
  after_take outs 0 main_arg2 (by decide) V

theorem a3 (V : Valuation τ sig (Elt F)) : after ops V (Proc.devRef .tc main_arg3) = V (Proc.devRef .tc main_arg3) :=
  after_take outs 0 main_arg3 (by decide) V

theorem a4 (V : Valuation τ sig (Elt F)) : after ops V (Proc.devRef .tc main_arg4) = V (Proc.devRef .tc main_arg4) :=
  after_take outs 0 main_arg4 (by decide) V

theorem a5 (V : Valuation τ sig (Elt F)) : after ops V (Proc.devRef .tc main_arg5) = V (Proc.devRef .tc main_arg5) :=
  after_take outs 0 main_arg5 (by decide) V

theorem a6 (V : Valuation τ sig (Elt F)) : after ops V (Proc.devRef .tc main_arg6) = V (Proc.devRef .tc main_arg6) :=
  after_take outs 0 main_arg6 (by decide) V

theorem a7 (V : Valuation τ sig (Elt F)) : after ops V (Proc.devRef .tc main_arg7) = V (Proc.devRef .tc main_arg7) :=
  after_take outs 0 main_arg7 (by decide) V

theorem a8 (V : Valuation τ sig (Elt F)) : after ops V (Proc.devRef .tc main_arg8) = V (Proc.devRef .tc main_arg8) :=
  after_take outs 0 main_arg8 (by decide) V

/-! ## The stages -/

/-- The edge sources followed by the self loops. -/
theorem s_src (V : Valuation τ sig (Elt F)) : after ops V (Proc.devRef .tc main_v3) = Cert.Gcn.src (V (Proc.devRef .tc main_arg1)) := by
  rw [e3, e2, e1, e0, a1]
  rfl

/-- The edge targets followed by the self loops. -/
theorem s_dst (V : Valuation τ sig (Elt F)) : after ops V (Proc.devRef .tc main_v6) = Cert.Gcn.dst (V (Proc.devRef .tc main_arg1)) := by
  rw [e6, e5, e4, e0, a1]
  rfl

/-- The first dense product. -/
theorem s_mm1 (V : Valuation τ sig (Elt F)) : after ops V (Proc.devRef .tc main_v7) = Cert.Gcn.mm1 (F := F) (V (Proc.devRef .tc main_arg0)) (V (Proc.devRef .tc main_arg3)) := by
  rw [e7, a0, a3]
  rfl

/-- The degrees (first computation). -/
theorem s_deg (V : Valuation τ sig (Elt F)) : after ops V (Proc.devRef .tc main_v11) = Cert.Gcn.deg (F := F) (Cert.Gcn.dst (V (Proc.devRef .tc main_arg1))) := by
  rw [e13, e11, e10, e12, e9, e8, s_dst]
  rfl

/-- The inverse square roots of the degrees (first computation). -/
theorem s_dinv (V : Valuation τ sig (Elt F)) : after ops V (Proc.devRef .tc main_v16) = Cert.Gcn.dinv (F := F) (Cert.Gcn.dst (V (Proc.devRef .tc main_arg1))) := by
  rw [e20, e16, e15, e14, e17, e19, e18, s_deg]
  rfl

/-- The sources as row numbers (for the first normalisation). -/
theorem s_wsrc (V : Valuation τ sig (Elt F)) : after ops V (Proc.devRef .tc main_v22) = Cert.Gcn.wrap (Cert.Gcn.src (V (Proc.devRef .tc main_arg1))) := by
  rw [e28, e27, e23, e22, e21, e26, e25, e24, s_src]
  rfl

/-- The targets as row numbers (for the first normalisation). -/
theorem s_wdst (V : Valuation τ sig (Elt F)) : after ops V (Proc.devRef .tc main_v29) = Cert.Gcn.wrap (Cert.Gcn.dst (V (Proc.devRef .tc main_arg1))) := by
  rw [e37, e36, e32, e31, e30, e35, e34, e33, s_dst]
  rfl

/-- The edge weights (first computation). -/
theorem s_norm (V : Valuation τ sig (Elt F)) : after ops V (Proc.devRef .tc main_v31) = Cert.Gcn.norm (F := F) (Cert.Gcn.src (V (Proc.devRef .tc main_arg1))) (Cert.Gcn.dst (V (Proc.devRef .tc main_arg1))) := by
  rw [e39, e29, e38, s_dinv, s_wsrc, s_wdst]
  rfl

/-- The sources as row numbers (for the first gather of rows). -/
theorem s_wsrc' (V : Valuation τ sig (Elt F)) : after ops V (Proc.devRef .tc main_v38) = Cert.Gcn.wrap (Cert.Gcn.src (V (Proc.devRef .tc main_arg1))) := by
  rw [e48, e47, e43, e42, e41, e46, e45, e44, s_src]
  rfl

/-- The first layer's aggregation. -/
theorem s_layer1 (V : Valuation τ sig (Elt F)) : after ops V (Proc.devRef .tc main_v47) = Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4)) := by
  rw [e58, e55, e53, e52, e54, e51, e50, e40, e49, e57, e56, s_norm, s_dst, s_mm1, s_wsrc', a4]
  rfl

/-- The first layer's activation. -/
theorem s_relu (V : Valuation τ sig (Elt F)) : after ops V (Proc.devRef .tc main_v48) = Cert.Gcn.relu (F := F) (Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4))) := by
  rw [e61, e60, e59, s_layer1]
  rfl

/-- The second dense product. -/
theorem s_mm2 (V : Valuation τ sig (Elt F)) : after ops V (Proc.devRef .tc main_v49) = Cert.Gcn.mm2 (F := F) (Cert.Gcn.relu (F := F) (Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4)))) (V (Proc.devRef .tc main_arg5)) := by
  rw [e62, s_relu, a5]
  rfl

/-- The three facts about the first half of the line that the second half starts from. -/
theorem first_half (V : Valuation τ sig (Elt F)) :
    after (ops (F := F)) V (Proc.devRef .tc main_v3) = Cert.Gcn.src (V (Proc.devRef .tc main_arg1))
      ∧ after (ops (F := F)) V (Proc.devRef .tc main_v6) = Cert.Gcn.dst (V (Proc.devRef .tc main_arg1))
      ∧ after (ops (F := F)) V (Proc.devRef .tc main_v49)
          = Cert.Gcn.mm2 (F := F) (Cert.Gcn.relu (Cert.Gcn.layer (Cert.Gcn.src (V (Proc.devRef .tc main_arg1)))
              (Cert.Gcn.dst (V (Proc.devRef .tc main_arg1))) (Cert.Gcn.mm1 (V (Proc.devRef .tc main_arg0)) (V (Proc.devRef .tc main_arg3)))
              (V (Proc.devRef .tc main_arg4)))) (V (Proc.devRef .tc main_arg5)) :=
  ⟨s_src V, s_dst V, s_mm2 V⟩

/-- The degrees (second computation). -/
theorem s_deg2 (V : Valuation τ sig (Elt F)) : after ops V (Proc.devRef .tc main_v53) = Cert.Gcn.deg (F := F) (Cert.Gcn.dst (V (Proc.devRef .tc main_arg1))) := by
  rw [e68, e66, e65, e67, e64, e63, s_dst]
  rfl

/-- The inverse square roots of the degrees (second computation). -/
theorem s_dinv2 (V : Valuation τ sig (Elt F)) : after ops V (Proc.devRef .tc main_v58) = Cert.Gcn.dinv (F := F) (Cert.Gcn.dst (V (Proc.devRef .tc main_arg1))) := by
  rw [e75, e71, e70, e69, e72, e74, e73, s_deg2]
  rfl

/-- The sources as row numbers (for the second normalisation). -/
theorem s_wsrc2 (V : Valuation τ sig (Elt F)) : after ops V (Proc.devRef .tc main_v64) = Cert.Gcn.wrap (Cert.Gcn.src (V (Proc.devRef .tc main_arg1))) := by
  rw [e83, e82, e78, e77, e76, e81, e80, e79, s_src]
  rfl

/-- The targets as row numbers (for the second normalisation). -/
theorem s_wdst2 (V : Valuation τ sig (Elt F)) : after ops V (Proc.devRef .tc main_v71) = Cert.Gcn.wrap (Cert.Gcn.dst (V (Proc.devRef .tc main_arg1))) := by
  rw [e92, e91, e87, e86, e85, e90, e89, e88, s_dst]
  rfl

/-- The edge weights (second computation). -/
theorem s_norm2 (V : Valuation τ sig (Elt F)) : after ops V (Proc.devRef .tc main_v73) = Cert.Gcn.norm (F := F) (Cert.Gcn.src (V (Proc.devRef .tc main_arg1))) (Cert.Gcn.dst (V (Proc.devRef .tc main_arg1))) := by
  rw [e94, e84, e93, s_dinv2, s_wsrc2, s_wdst2]
  rfl

/-- The sources as row numbers (for the second gather of rows). -/
theorem s_wsrc2' (V : Valuation τ sig (Elt F)) : after ops V (Proc.devRef .tc main_v80) = Cert.Gcn.wrap (Cert.Gcn.src (V (Proc.devRef .tc main_arg1))) := by
  rw [e103, e102, e98, e97, e96, e101, e100, e99, s_src]
  rfl

/-- The second layer's aggregation. -/
theorem s_layer2 (V : Valuation τ sig (Elt F)) : after ops V (Proc.devRef .tc main_v89) = Cert.Gcn.layer (F := F) (Cert.Gcn.src (V (Proc.devRef .tc main_arg1))) (Cert.Gcn.dst (V (Proc.devRef .tc main_arg1))) (Cert.Gcn.mm2 (F := F) (Cert.Gcn.relu (F := F) (Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4)))) (V (Proc.devRef .tc main_arg5))) (V (Proc.devRef .tc main_arg6)) := by
  rw [e113, e110, e108, e107, e109, e106, e105, e95, e104, e112, e111, s_norm2, s_dst, s_mm2, s_wsrc2', a6]
  rfl

/-- The per-graph sums. -/
theorem s_sums (V : Valuation τ sig (Elt F)) : after ops V (Proc.devRef .tc main_v92) = Cert.Gcn.sums (F := F) (V (Proc.devRef .tc main_arg2)) (Cert.Gcn.layer (F := F) (Cert.Gcn.src (V (Proc.devRef .tc main_arg1))) (Cert.Gcn.dst (V (Proc.devRef .tc main_arg1))) (Cert.Gcn.mm2 (F := F) (Cert.Gcn.relu (F := F) (Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4)))) (V (Proc.devRef .tc main_arg5))) (V (Proc.devRef .tc main_arg6))) := by
  rw [e117, e115, e114, e116, a2, s_layer2]
  rfl

/-- The per-graph node counts. -/
theorem s_cnts (V : Valuation τ sig (Elt F)) : after ops V (Proc.devRef .tc main_v96) = Cert.Gcn.cnts (F := F) (V (Proc.devRef .tc main_arg2)) := by
  rw [e123, e121, e120, e122, e119, e118, a2]
  rfl

/-- The head. -/
theorem s_head (V : Valuation τ sig (Elt F)) : after ops V (Proc.devRef .tc main_v105) = Cert.Gcn.head (F := F) (Cert.Gcn.sums (F := F) (V (Proc.devRef .tc main_arg2)) (Cert.Gcn.layer (F := F) (Cert.Gcn.src (V (Proc.devRef .tc main_arg1))) (Cert.Gcn.dst (V (Proc.devRef .tc main_arg1))) (Cert.Gcn.mm2 (F := F) (Cert.Gcn.relu (F := F) (Cert.Gcn.layer (F := F) (Cert.Gcn.src (V (Proc.devRef .tc main_arg1))) (Cert.Gcn.dst (V (Proc.devRef .tc main_arg1))) (Cert.Gcn.mm1 (F := F) (V (Proc.devRef .tc main_arg0)) (V (Proc.devRef .tc main_arg3))) (V (Proc.devRef .tc main_arg4)))) (V (Proc.devRef .tc main_arg5))) (V (Proc.devRef .tc main_arg6)))) (Cert.Gcn.cnts (F := F) (V (Proc.devRef .tc main_arg2))) (V (Proc.devRef .tc main_arg7)) (V (Proc.devRef .tc main_arg8)) := by
  rw [e133, e130, e129, e128, e127, e126, e125, e124, e132, e131, s_sums, s_cnts, a7, a8]
  rfl

/-- After the whole line, the result buffer holds the network's output on the argument arrays. -/
theorem value (V : Valuation τ sig (Elt F)) :
    after (ops (F := F)) V (Proc.devRef .tc main_v105)
      = Cert.Gcn.out (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) := by
  rw [s_head]
  rfl

end Cert.ReferenceIdeal.RefValue
end
-- ==== Proof.lean ====
/-
  The certificate of a two-layer graph convolution with mean pooling and a linear head
  (100000 nodes with 128 features, 1200000 edges plus a self loop per node, 256 graphs), against its jnp reference.

  Both programs compute, on the extended reals, the same function of the argument arrays (Proof/Spec.lean, `Cert.Gcn.out`):
  the symmetric normalisation dinv[src] · dinv[dst] of the edges from the degrees; x · W1; its weighted sum over the edges
  ending at each node plus b1, clamped at 0; that times W2; its weighted sum plus b2; the per-graph sums of the rows divided
  by the per-graph node counts (at least 1), times Wl, plus bl. They differ only in who computes the three dense products:
  the kernel in three grid regions (the row blocks of a product tile it, and a block product into a zero accumulator is the
  plain sum of products; the narrowing of the operands is the identity on the extended reals), the reference by the host's
  dot_general. Every other operation is the same host operation in both, so no law of the extended reals beyond reading the
  products as sums is needed, and the precondition is never opened.

  * `Proof/KRun.lean`: the kernel's run with every buffer named at the last boundary's contents.
  * `Proof/KRegionMatmul.lean`, `Proof/KRegionHead.lean`: each region's output array as a function of its inputs.
  * `Proof/KHost.lean`, `Proof/KValue.lean`: the host stretches between the regions, and the result buffer as `Cert.Gcn.out`.
  * `Proof/RefRun.lean`, `Proof/RefOuts.lean`, `Proof/RefValue.lean`: the reference's run and its result buffer as `Cert.Gcn.out`.
  The ideal pass rewrote nothing, so `preserves` is trivial.
-/
import proofs.«142191_j37194416783379_2_alg».proof.Defs
import proofs.«142191_j37194416783379_2_alg».proof.Proof.Gen.Kernel
import proofs.«142191_j37194416783379_2_alg».proof.Proof.Gen.Kernel.Skeleton
import proofs.«142191_j37194416783379_2_alg».proof.Proof.Gen.Kernel.Launch
import proofs.«142191_j37194416783379_2_alg».proof.Proof.Gen.Kernel.Points
import proofs.«142191_j37194416783379_2_alg».proof.Proof.Gen.Kernel.Frame
import proofs.«142191_j37194416783379_2_alg».proof.Proof.Gen.KernelIdeal
import proofs.«142191_j37194416783379_2_alg».proof.Proof.Gen.KernelIdeal.Skeleton
import proofs.«142191_j37194416783379_2_alg».proof.Proof.Gen.KernelIdeal.Launch
import proofs.«142191_j37194416783379_2_alg».proof.Proof.Gen.KernelIdeal.Points
import proofs.«142191_j37194416783379_2_alg».proof.Proof.Gen.KernelIdeal.Frame
import proofs.«142191_j37194416783379_2_alg».proof.Proof.Gen.ReferenceIdeal
import proofs.«142191_j37194416783379_2_alg».proof.Proof.Gen.Pre_finite_inputs
import proofs.«142191_j37194416783379_2_alg».proof.Proof.KRun
import proofs.«142191_j37194416783379_2_alg».proof.Proof.KValue
import proofs.«142191_j37194416783379_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- An argument buffer of the reference after its line of operations: as launched (the line never writes it). -/
theorem ref_arg (m : (ℓ : Loc Cert.ReferenceIdeal.nD Cert.ReferenceIdeal.τ Cert.ReferenceIdeal.sig) → Buf (Elt Ideal) ℓ)
    (c : Dev Cert.ReferenceIdeal.nD) (r : Ref Cert.ReferenceIdeal.sig .tc) (hr : r ∉ Cert.ReferenceIdeal.RefValue.ys) :
    StableHlo.after (Cert.ReferenceIdeal.ValueP.ops (F := Ideal)) (StableHlo.launchContents m c) (Proc.devRef .tc r)
      = m ((c.tc : Thread Cert.ReferenceIdeal.nD Cert.ReferenceIdeal.τ).loc r) :=
  HostRead.after_take Cert.ReferenceIdeal.RefValue.outs 0 r hr _

/-- The idealized reference runs and leaves its arguments as launched. -/
theorem frame_ri : Cert.frame_ReferenceIdeal := fun m ρ _ =>
  (θ_run Cert.ReferenceIdeal.defs _ _).mono (fun r h c =>
    ⟨(h c Cert.ReferenceIdeal.main_arg0).trans (ref_arg m c _ (by decide)),
     (h c Cert.ReferenceIdeal.main_arg1).trans (ref_arg m c _ (by decide)),
     (h c Cert.ReferenceIdeal.main_arg2).trans (ref_arg m c _ (by decide)),
     (h c Cert.ReferenceIdeal.main_arg3).trans (ref_arg m c _ (by decide)),
     (h c Cert.ReferenceIdeal.main_arg4).trans (ref_arg m c _ (by decide)),
     (h c Cert.ReferenceIdeal.main_arg5).trans (ref_arg m c _ (by decide)),
     (h c Cert.ReferenceIdeal.main_arg6).trans (ref_arg m c _ (by decide)),
     (h c Cert.ReferenceIdeal.main_arg7).trans (ref_arg m c _ (by decide)),
     (h c Cert.ReferenceIdeal.main_arg8).trans (ref_arg m c _ (by decide))⟩)
    (Cert.ReferenceIdeal.ValueP.run_all (F := Ideal) m ρ)

/-- The ideal pass rewrote no operation. -/
theorem preserves : Cert.preserves_Kernel_KernelIdeal := trivial

/-- From memories agreeing on the arguments both idealized programs end with the result buffer at `Cert.Gcn.out` of the
    argument arrays. -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.RunAll.run_all (F := Ideal) m ρ)
    exact ⟨(h c _ (Cert.KernelIdeal.Gen.mem_uc Cert.KernelIdeal.main_v75 (by decide))).trans (Cert.KernelIdeal.KVal.value m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c)⟩
  · refine (θ_run Cert.ReferenceIdeal.defs _ _).mono (fun r h c => ?_) (Cert.ReferenceIdeal.ValueP.run_all (F := Ideal) m' ρ')
    refine ⟨(h c Cert.ReferenceIdeal.main_v105).trans ((Cert.ReferenceIdeal.RefValue.value (StableHlo.launchContents m' c)).trans ?_),
      (h c Cert.ReferenceIdeal.main_arg0).trans (ref_arg m' c _ (by decide)),
      (h c Cert.ReferenceIdeal.main_arg1).trans (ref_arg m' c _ (by decide)),
      (h c Cert.ReferenceIdeal.main_arg2).trans (ref_arg m' c _ (by decide)),
      (h c Cert.ReferenceIdeal.main_arg3).trans (ref_arg m' c _ (by decide)),
      (h c Cert.ReferenceIdeal.main_arg4).trans (ref_arg m' c _ (by decide)),
      (h c Cert.ReferenceIdeal.main_arg5).trans (ref_arg m' c _ (by decide)),
      (h c Cert.ReferenceIdeal.main_arg6).trans (ref_arg m' c _ (by decide)),
      (h c Cert.ReferenceIdeal.main_arg7).trans (ref_arg m' c _ (by decide)),
      (h c Cert.ReferenceIdeal.main_arg8).trans (ref_arg m' c _ (by decide))⟩
    obtain ⟨h0, h1, h2, h3, h4, h5, h6, h7, h8⟩ := hagree c
    show Cert.Gcn.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
